-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S1024x8x256 : Shape := ⟨3, ![1024, 8, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1024x8x256 : S_.BroadcastsInDim S1024x8x256 (![] : Fin 0 → Fin S1024x8x256.rank)
  reducesTo_S1024x8x256_S_d0_1_2 : S1024x8x256.ReducesTo [0, 1, 2] S_

variable [Facts]

def fn {F : FTy → Type} [FloatOps F] (main_arg0 : FVec F S4096x256 .f32) (main_arg1 : IVec S4096 32) (main_arg2 : FVec F S1024x8x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S1024x8x256 .f32 := Host.absf main_arg2
  let main_cst_0 : FVec F S_ .f32 := constant S_ .f32 0x7F800000#32
  let main_v5 : FVec F S1024x8x256 .f32 := broadcastInDim S1024x8x256 ![] bcast_S_S1024x8x256 main_cst_0
  let main_v6 : IVec S1024x8x256 1 := cmpf .olt main_v4 main_v5
  let main_c_1 : IVec S_ 1 := constantI S_ 1 1#1
  let main_v7 : IVec S_ 1 := (fun x v => Host.reduce IntOp.andi x v reducesTo_S1024x8x256_S_d0_1_2 h_S_) main_v6 main_c_1
  let main_v8 : IVec S_ 1 := andi main_v3 main_v7
  main_v8
-- ==== Kernel.lean ====
abbrev S4096x256 : Shape := ⟨2, ![4096, 256]⟩
abbrev S4096 : Shape := ⟨1, ![4096]⟩
abbrev S1024x8x256 : Shape := ⟨3, ![1024, 8, 256]⟩
abbrev S8192x256 : Shape := ⟨2, ![8192, 256]⟩
abbrev S1024x256 : Shape := ⟨2, ![1024, 256]⟩
abbrev S1024 : Shape := ⟨1, ![1024]⟩
abbrev S2048x256 : Shape := ⟨2, ![2048, 256]⟩
abbrev S2048 : Shape := ⟨1, ![2048]⟩
abbrev S2048x1 : Shape := ⟨2, ![2048, 1]⟩
abbrev S256x8x256 : Shape := ⟨3, ![256, 8, 256]⟩
abbrev S8x256x256 : Shape := ⟨3, ![8, 256, 256]⟩
abbrev S1024x1 : Shape := ⟨2, ![1024, 1]⟩
abbrev S2048x1024 : Shape := ⟨2, ![2048, 1024]⟩
abbrev S256x1024 : Shape := ⟨2, ![256, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S1024x8x256, .f32⟩
  | .hbm, ⟨3, _⟩ => ⟨S8192x256, .f32⟩
  | .hbm, ⟨4, _⟩ => ⟨S4096, .f32⟩
  | .hbm, ⟨5, _⟩ => ⟨S4096, .f32⟩
  | .local _ .vmem, ⟨0, _⟩ => ⟨S1024x256, .f32⟩
  | .local _ .vmem, ⟨1, _⟩ => ⟨S1024x256, .f32⟩
  | .local _ .vmem, ⟨2, _⟩ => ⟨S1024, .i32⟩
  | .local _ .vmem, ⟨3, _⟩ => ⟨S1024, .i32⟩
  | .local _ .vmem, ⟨4, _⟩ => ⟨S2048x256, .f32⟩
  | .local _ .vmem, ⟨5, _⟩ => ⟨S2048x256, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S8192x256, .bf16⟩
  | .local _ .vmem, ⟨11, _⟩ => ⟨S1024x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c2048_i32_18 : BitVec 32 := 2048#32
  let v70 : BitVec 32 := Scalar.muli arg1 c2048_i32_18
  let v71 : Index := Scalar.indexCast v70
  let c0_19 : Index := 0#32
  ![v71.toNat, 0]
def k0_off2 (i : grid0.Coords) : Fin 2 → Nat :=
  let arg1 : BitVec 32 := BitVec.ofNat 32 (i 1).val
  let c2048_i32 : BitVec 32 := 2048#32
  let v6 : BitVec 32 := Scalar.muli arg1 c2048_i32
  let v7 : Index := Scalar.indexCast v6
  let c0 : Index := 0#32
  ![v7.toNat, 0]
def k0_cond3 (i : grid0.Coords) : BitVec 1 :=
  let arg1 : BitVec 32 := BitVec.ofNat 32 (i 1).val
  let c0_i32_10 : BitVec 32 := 0#32
  let v50 : BitVec 1 := Scalar.cmpi .eq arg1 c0_i32_10
  let v51 : BitVec 32 := Scalar.extui v50
  let c0_i32_11 : BitVec 32 := 0#32
  let v52 : BitVec 1 := Scalar.cmpi .ne v51 c0_i32_11
  v52

def k0_cond4 (i : grid0.Coords) : BitVec 1 :=
  let arg1 : BitVec 32 := BitVec.ofNat 32 (i 1).val
  let c0_i32_12 : BitVec 32 := 0#32
  let v53 : BitVec 1 := Scalar.cmpi .ne arg1 c0_i32_12
  let v54 : BitVec 32 := Scalar.extui v53
  let c0_i32_13 : BitVec 32 := 0#32
  let v55 : BitVec 1 := Scalar.cmpi .ne v54 c0_i32_13
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1024x8x256_S8192x256 : S1024x8x256.ShapeCasts S8192x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  shapeCasts_S2048x256_S256x8x256 : S2048x256.ShapeCasts S256x8x256
  transposes_S256x8x256_p1_0_2_S8x256x256 : S256x8x256.Transposes [1, 0, 2] S8x256x256
  shapeCasts_S8x256x256_S2048x256 : S8x256x256.ShapeCasts S2048x256
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  slices_S2048x1024_o0_0_S256x1024 : S2048x1024.Slices ![0, 0] S256x1024
  slices_S2048x1024_o256_0_S256x1024 : S2048x1024.Slices ![256, 0] S256x1024
  slices_S2048x1024_o512_0_S256x1024 : S2048x1024.Slices ![512, 0] S256x1024
  slices_S2048x1024_o768_0_S256x1024 : S2048x1024.Slices ![768, 0] S256x1024
  slices_S2048x1024_o1024_0_S256x1024 : S2048x1024.Slices ![1024, 0] S256x1024
  slices_S2048x1024_o1280_0_S256x1024 : S2048x1024.Slices ![1280, 0] S256x1024
  slices_S2048x1024_o1536_0_S256x1024 : S2048x1024.Slices ![1536, 0] S256x1024
  slices_S2048x1024_o1792_0_S256x1024 : S2048x1024.Slices ![1792, 0] S256x1024
  iota_S256x1024_d0_w32 : S256x1024.Iotas .tc 32 [0]
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  reduces_S256x1024_S1024 : S256x1024.Reduces [0] S1024
  shapeCasts_S1024_S1024 : S1024.ShapeCasts S1024
  dot_S2048x256_S1024x256_S2048x1024_1_1_0_0_n_n_wf : DotDims.WF S2048x256 S1024x256 S2048x1024 [1] [1] [0] [0] [] []
  hrank0 : 0 < grid0.rank
  k0_off1_inb : ∀ i : grid0.Coords, ∀ (k0_h1 : k0_cond1 i = 1#1), ∀ a, (k0_off1 i) a + S2048x256.size a ≤ S8192x256.size a
  k0_off1_packedbf16 : ∀ i : grid0.Coords, ∀ (k0_h1 : k0_cond1 i = 1#1), (Rect.unit (s := S8192x256) (k0_off1 i) S2048x256.size (k0_off1_inb i k0_h1)).PackedRows (EltTy.packing .bf16)
  k0_off2_inb : ∀ i : grid0.Coords, ∀ a, (k0_off2 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S4096.size a
  hwx0_1 : ∀ i : grid0.Coords, EltTy.bits .i32 = 32 ∨ (Rect.block (s := S4096) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .f32 = 32 ∨ (Rect.block (s := S4096) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) && !(k0_cond4 i == 1#1) | 4 => fun i => !(k0_cond3 i == 1#1) && !(k0_cond4 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S1024x8x256 : Shape := ⟨3, ![1024, 8, 256]⟩
abbrev S_ : Shape := ⟨0, ![]⟩
abbrev S4096x1 : Shape := ⟨2, ![4096, 1]⟩
abbrev S8192x256 : Shape := ⟨2, ![8192, 256]⟩
abbrev S8192 : Shape := ⟨1, ![8192]⟩
abbrev S8192x1 : Shape := ⟨2, ![8192, 1]⟩
abbrev S256x8192 : Shape := ⟨2, ![256, 8192]⟩
abbrev S4096x8192 : Shape := ⟨2, ![4096, 8192]⟩
abbrev S1024 : Shape := ⟨1, ![1024]⟩
abbrev S1024x8 : Shape := ⟨2, ![1024, 8]⟩
abbrev S1x8192 : Shape := ⟨2, ![1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S1024x8x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x256, .f32⟩
  | .hbm, ⟨25, _⟩ => ⟨S8192x256, .f32⟩
  | .hbm, ⟨26, _⟩ => ⟨S256x8192, .f32⟩
  | .hbm, ⟨27, _⟩ => ⟨S4096x8192, .f32⟩
  | .hbm, ⟨28, _⟩ => ⟨S1024, .i32⟩
  | .hbm, ⟨29, _⟩ => ⟨S1024x8, .i32⟩
  | .hbm, ⟨30, _⟩ => ⟨S8192, .i32⟩
  | .hbm, ⟨31, _⟩ => ⟨S1x8192, .i32⟩
  | .hbm, ⟨32, _⟩ => ⟨S4096x1, .i32⟩
  | .hbm, ⟨33, _⟩ => ⟨S4096x8192, .i32⟩
  | .hbm, ⟨34, _⟩ => ⟨S4096x8192, .i32⟩
  | .hbm, ⟨35, _⟩ => ⟨S4096x8192, .i1⟩
  | .hbm, ⟨36, _⟩ => ⟨S_, .f32⟩
  | .hbm, ⟨37, _⟩ => ⟨S_, .f32⟩
  | .hbm, ⟨38, _⟩ => ⟨S4096x8192, .f32⟩
  | .hbm, ⟨39, _⟩ => ⟨S4096x8192, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S4096x8192, .f32⟩
  | .hbm, ⟨45, _⟩ => ⟨S4096x8192, .f32⟩
  | .hbm, ⟨46, _⟩ => ⟨S_, .f32⟩
  | .hbm, ⟨47, _⟩ => ⟨S4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call2_v0 : Ref sig .tc := ⟨.hbm, 15, rfl⟩
abbrev main_call2_cst : Ref sig .tc := ⟨.hbm, 16, rfl⟩
abbrev main_call2_v1 : Ref sig .tc := ⟨.hbm, 17, rfl⟩
abbrev main_call2_v2 : Ref sig .tc := ⟨.hbm, 18, rfl⟩
abbrev main_v5 : Ref sig .tc := ⟨.hbm, 19, rfl⟩
abbrev main_cst_0 : Ref sig .tc := ⟨.hbm, 20, rfl⟩
abbrev main_call3_v0 : Ref sig .tc := ⟨.hbm, 21, rfl⟩
abbrev main_call3_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_call4_v0 : Ref sig .tc := ⟨.hbm, 37, rfl⟩
abbrev main_call4_v1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_cst_3 : Ref sig .tc := ⟨.hbm, 42, rfl⟩
abbrev main_call5_v0 : Ref sig .tc := ⟨.hbm, 43, rfl⟩
abbrev main_call5_v1 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  shapeCasts_S1024x8x256_S8192x256 : S1024x8x256.ShapeCasts S8192x256
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S1024_S1024x8_0 : S1024.BroadcastsInDim S1024x8 (![0] : Fin 1 → Fin S1024x8.rank)
  shapeCasts_S1024x8_S8192 : S1024x8.ShapeCasts S8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  reducesTo_S4096x8192_S4096_d1 : S4096x8192.ReducesTo [1] S4096
  dot_S4096x256_S256x8192_S4096x8192_1_0_0_1_n_n_wf : DotDims.WF S4096x256 S256x8192 S4096x8192 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.BitsCommon.lean ====
/-
  The fused kernel's body, case by case: what is shared by the four cases.

  The grid is 4 x 4, walked row by row: point t = 4 i + j, where i is the batch chunk and j the class tile.
  The body branches on i = 0 (normalise and repack the prototype tile into the K-major scratch), on j = 0
  (normalise the batch chunk into its scratch; initialise the two running maxima) and on j ≠ 0 (fold the
  tile's maxima into the running ones). So a point is in one of four cases:
    A: i = 0, j = 0     B: i = 0, j ≠ 0     C: i ≠ 0, j = 0     D: i ≠ 0, j ≠ 0.
-/
import proofs.«162377_g90082644066738_cont_sun_c4_21_26_alg».proof.Proof.Gen.Kernel.Frame
import proofs.«162377_g90082644066738_cont_sun_c4_21_26_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions, decided over the grid -/

/-- "i = 0", as the body computes it. -/
abbrev cond1 (i : grid0.Coords) : Prop := k0_cond1 i = 1#1
/-- "j = 0", as the body computes it at the second branch (the scalar chain spelt out). -/
abbrev cond2 (i : grid0.Coords) : Prop :=
  (Scalar.cmpi .ne (Scalar.extui (Scalar.cmpi .eq (BitVec.ofNat 32 (i 1).val) 0#32)) 0#32) = 1#1
/-- "j = 0" at the third branch. -/
abbrev cond3 (i : grid0.Coords) : Prop := k0_cond3 i = 1#1
/-- "j ≠ 0" at the fourth. -/
abbrev cond4 (i : grid0.Coords) : Prop := k0_cond4 i = 1#1

theorem hcond1 : ∀ t : Fin cfg0.N, cond1 (grid0.coords t) ↔ t.val / 4 = 0 :=
  (by decide +kernel : ∀ t : Fin grid0.N, cond1 (grid0.coords t) ↔ t.val / 4 = 0)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ t.val % 4 = 0 :=
  (by decide +kernel : ∀ t : Fin grid0.N, cond3 (grid0.coords t) ↔ t.val % 4 = 0)
theorem hcond4 : ∀ t : Fin cfg0.N, cond4 (grid0.coords t) ↔ ¬ t.val % 4 = 0 :=
  (by decide +kernel : ∀ t : Fin grid0.N, cond4 (grid0.coords t) ↔ ¬ t.val % 4 = 0)

/-! ## The outputs are never idle: one of the two stores happens at every point -/

theorem live3 : ∀ t : Fin cfg0.N, cfg0.idle 3 (grid0.coords t) = false := by decide +kernel
theorem live4 : ∀ t : Fin cfg0.N, cfg0.idle 4 (grid0.coords t) = false := by decide +kernel
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
/-- The K-major prototype scratch (all four tiles) and the normalised batch chunk's scratch. -/
abbrev scM7 : Memref sig .tc .vmem S8192x256 .bf16 := Memref.whole cc0_scratch0
abbrev scM8 : Memref sig .tc .vmem S1024x256 .bf16 := Memref.whole cc0_scratch1
abbrev hsc7 : (scM7).IsWhole := Memref.isWhole_whole _
abbrev hsc8 : (scM8).IsWhole := Memref.isWhole_whole _
/-- Views through which an output's and a scratch's contents are stated. -/
abbrev VO3 : View sig .tc .vmem S1024 .f32 := (Memref.whole cc0_stg3_0 : Memref sig .tc .vmem S1024 .f32).view
abbrev VS7 : View sig .tc .vmem S8192x256 .bf16 := scM7.view
abbrev VS8 : View sig .tc .vmem S1024x256 .bf16 := scM8.view

/-- Tile `j` (the point's second coordinate) of the K-major scratch: its rows [2048 j, 2048 (j + 1)). -/
def tile (i : grid0.Coords) (X : Vec F S8192x256 .bf16) : Vec F S2048x256 .bf16 :=
  View.ld X (Rect.unit (s := S8192x256) (k0_off2 i) S2048x256.size (k0_off2_inb i))

/-- The scratch after tile `j` is overwritten with `w`: read back through the scratch's own view. -/
def putTile (arg7 : Memref sig .tc .vmem S8192x256 .bf16) (harg7 : arg7.IsWhole) (i : grid0.Coords) (h1 : cond1 i)
    (X : Vec F S8192x256 .bf16) (w : Vec F S2048x256 .bf16) : Vec F S8192x256 .bf16 :=
  arg7.view.read (Elt F) (arg7.view.writes (Elt F) (harg7.unread X)
    [⟨Rect.unit (s := S8192x256) (k0_off1 i) S2048x256.size (k0_off1_inb i h1), w⟩])

theorem hz1 : (![0] : Fin 1 → ℕ) = fun _ => 0 := by funext a; fin_cases a; rfl
theorem hz2 : (![0, 0] : Fin 2 → ℕ) = fun _ => 0 := by funext a; fin_cases a <;> rfl

/-- One store through the whole-shape rectangle at zero offsets leaves its payload, whatever was there. -/
theorem read_writes_unit0 {κ : Kind} {sp : Space} {S : Shape} {e : EltTy} (v : View sig κ sp S e) (f : v.ty.Contents (Elt F))
    (off : Fin S.rank → ℕ) (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- A load through the whole-shape rectangle at zero offsets of a whole memref holding `X` reads `X`. -/
theorem readAt_unit0 {κ : Kind} {sp : Space} {S : Shape} {e : EltTy} (m : Memref sig κ sp S e) (hm : m.IsWhole) (X : S.Idx → Elt F e)
    (off : Fin S.rank → ℕ) (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

/-- The class invariant, with the two scratch buffers as memrefs owned at some contents. -/
theorem PhiA_eq (c : Dev nD) :
    (Pipeline.ΦA spec0 c : sProp 𝕄)
      = iprop(iprop((∃ d, owns (c : Thread nD τ) scM7 fullShare d) ∗ (∃ d, owns (c : Thread nD τ) scM8 fullShare d)) ∗ (∃ r, prngReg c r)) := by
  unfold Pipeline.ΦA; rw [scopedRest0_eq]; simp only [scM7, scM8, owns_whole]; try rfl

end Cert.Kernel.Body

end
-- ==== Proof.BitsRunA.lean ====
/-
  The body's run in case A (i = 0, j = 0). On whole memrefs holding the batch chunk's rows, its labels, the prototype
  tile, the two running maxima and the two scratch buffers, the body runs to the end; it hands back the inputs as they
  were, and each buffer it stores into at the payload of the store, as a function of what it loaded:
  the prototype tile normalised and repacked K-major is written over tile j of its scratch;
  the batch chunk normalised is written into its scratch and the two maxima are initialised.
-/
import proofs.«162377_g90082644066738_cont_sun_c4_21_26_alg».proof.Proof.BitsCommon

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_A (c : Dev nD) (i : grid0.Coords) (arg2 : Memref sig .tc .vmem S1024x256 .f32) (harg2 : arg2.IsWhole) (arg3 : Memref sig .tc .vmem S1024 .i32) (harg3 : arg3.IsWhole) (arg4 : Memref sig .tc .vmem S2048x256 .f32) (harg4 : arg4.IsWhole) (arg5 : Memref sig .tc .vmem S1024 .f32) (harg5 : arg5.IsWhole) (arg6 : Memref sig .tc .vmem S1024 .f32) (harg6 : arg6.IsWhole) (arg7 : Memref sig .tc .vmem S8192x256 .bf16) (harg7 : arg7.IsWhole) (arg8 : Memref sig .tc .vmem S1024x256 .bf16) (harg8 : arg8.IsWhole) (hc1 : cond1 i) (hc2 : cond2 i) (hc3 : cond3 i) (hc4 : ¬cond4 i)
    (x0 : Vec F S1024x256 .f32) (x1 : Vec F S1024 .i32) (x2 : Vec F S2048x256 .f32) (xo3 : Vec F S1024 .f32) (xo4 : Vec F S1024 .f32) (xs7 : Vec F S8192x256 .bf16) (xs8 : Vec F S1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xs7 ∗ owns (c : Thread nD τ) arg8 fullShare xs8
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay9 i (k0_pay5 x2) (k0_pay6 x0) x1))
            ∗ owns (c : Thread nD τ) arg6 fullShare (k0_pay2 (k0_pay7 (k0_pay5 x2) (k0_pay6 x0)) (k0_pay8 i x1))
            ∗ owns (c : Thread nD τ) arg7 fullShare (putTile arg7 harg7 i hc1 xs7 (k0_pay5 x2)) ∗ owns (c : Thread nD τ) arg8 fullShare (k0_pay6 x0)) -∗ K ⟨⟩))
      ⊢ wp frame (wpE (defs₀ (F := F)) Variants.none c none) E (cc0__fused_kernel i arg2 harg2 arg3 harg3 arg4 harg4 arg5 harg5 arg6 harg6 arg7 harg7 arg8 harg8) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_unit0 (S := S1024) (e := .f32) arg5.view (harg5.unread xo3) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H4]
  · iexists _; isplitr; swap; · iexact H4
    ipureintro
    refine (read_writes_unit0 (S := S1024) (e := .f32) arg6.view (harg6.unread xo4) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H7]
  · iexists _; isplitr; swap; · iexact H7
    ipureintro
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  iexists _; isplitr; swap; · iexact H8
  ipureintro
  sl_unfold_words
  refine (read_writes_unit0 (S := S1024x256) (e := .bf16) arg8.view (harg8.unread xs8) ![0, 0] hz2 inb_S1024x256_S1024x256_0_0 _).trans ?_
  simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]

end Cert.Kernel.Body

end
-- ==== Proof.BitsRunB.lean ====
/-
  The body's run in case B (i = 0, j ≠ 0). On whole memrefs holding the batch chunk's rows, its labels, the prototype
  tile, the two running maxima and the two scratch buffers, the body runs to the end; it hands back the inputs as they
  were, and each buffer it stores into at the payload of the store, as a function of what it loaded:
  the prototype tile normalised and repacked K-major is written over tile j of its scratch;
  the normalised batch chunk is read as it is, and the tile's maxima are folded into the running ones.
-/
import proofs.«162377_g90082644066738_cont_sun_c4_21_26_alg».proof.Proof.BitsRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_B (c : Dev nD) (i : grid0.Coords) (arg2 : Memref sig .tc .vmem S1024x256 .f32) (harg2 : arg2.IsWhole) (arg3 : Memref sig .tc .vmem S1024 .i32) (harg3 : arg3.IsWhole) (arg4 : Memref sig .tc .vmem S2048x256 .f32) (harg4 : arg4.IsWhole) (arg5 : Memref sig .tc .vmem S1024 .f32) (harg5 : arg5.IsWhole) (arg6 : Memref sig .tc .vmem S1024 .f32) (harg6 : arg6.IsWhole) (arg7 : Memref sig .tc .vmem S8192x256 .bf16) (harg7 : arg7.IsWhole) (arg8 : Memref sig .tc .vmem S1024x256 .bf16) (harg8 : arg8.IsWhole) (hc1 : cond1 i) (hc2 : ¬cond2 i) (hc3 : ¬cond3 i) (hc4 : cond4 i)
    (x0 : Vec F S1024x256 .f32) (x1 : Vec F S1024 .i32) (x2 : Vec F S2048x256 .f32) (xo3 : Vec F S1024 .f32) (xo4 : Vec F S1024 .f32) (xs7 : Vec F S8192x256 .bf16) (xs8 : Vec F S1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xs7 ∗ owns (c : Thread nD τ) arg8 fullShare xs8
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay9 i (k0_pay5 x2) xs8 x1) xo3)
            ∗ owns (c : Thread nD τ) arg6 fullShare (k0_pay4 (k0_pay7 (k0_pay5 x2) xs8) (k0_pay8 i x1) xo4)
            ∗ owns (c : Thread nD τ) arg7 fullShare (putTile arg7 harg7 i hc1 xs7 (k0_pay5 x2)) ∗ owns (c : Thread nD τ) arg8 fullShare xs8) -∗ K ⟨⟩))
      ⊢ wp frame (wpE (defs₀ (F := F)) Variants.none c none) E (cc0__fused_kernel i arg2 harg2 arg3 harg3 arg4 harg4 arg5 harg5 arg6 harg6 arg7 harg7 arg8 harg8) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_unit0 (S := S1024) (e := .f32) arg5.view (harg5.unread xo3) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H4]
  · iexists _; isplitr; swap; · iexact H4
    ipureintro
    refine (read_writes_unit0 (S := S1024) (e := .f32) arg6.view (harg6.unread xo4) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H7]
  · iexists _; isplitr; swap; · iexact H7
    ipureintro
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  iexists _; isplitr; · ipureintro; exact harg8.read_unread _
  iexact H8

end Cert.Kernel.Body

end
-- ==== Proof.BitsRunC.lean ====
/-
  The body's run in case C (i ≠ 0, j = 0). On whole memrefs holding the batch chunk's rows, its labels, the prototype
  tile, the two running maxima and the two scratch buffers, the body runs to the end; it hands back the inputs as they
  were, and each buffer it stores into at the payload of the store, as a function of what it loaded:
  tile j of the K-major scratch is read as it is;
  the batch chunk normalised is written into its scratch and the two maxima are initialised.
-/
import proofs.«162377_g90082644066738_cont_sun_c4_21_26_alg».proof.Proof.BitsRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_C (c : Dev nD) (i : grid0.Coords) (arg2 : Memref sig .tc .vmem S1024x256 .f32) (harg2 : arg2.IsWhole) (arg3 : Memref sig .tc .vmem S1024 .i32) (harg3 : arg3.IsWhole) (arg4 : Memref sig .tc .vmem S2048x256 .f32) (harg4 : arg4.IsWhole) (arg5 : Memref sig .tc .vmem S1024 .f32) (harg5 : arg5.IsWhole) (arg6 : Memref sig .tc .vmem S1024 .f32) (harg6 : arg6.IsWhole) (arg7 : Memref sig .tc .vmem S8192x256 .bf16) (harg7 : arg7.IsWhole) (arg8 : Memref sig .tc .vmem S1024x256 .bf16) (harg8 : arg8.IsWhole) (hc1 : ¬cond1 i) (hc2 : cond2 i) (hc3 : cond3 i) (hc4 : ¬cond4 i)
    (x0 : Vec F S1024x256 .f32) (x1 : Vec F S1024 .i32) (x2 : Vec F S2048x256 .f32) (xo3 : Vec F S1024 .f32) (xo4 : Vec F S1024 .f32) (xs7 : Vec F S8192x256 .bf16) (xs8 : Vec F S1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xs7 ∗ owns (c : Thread nD τ) arg8 fullShare xs8
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay9 i (tile i xs7) (k0_pay6 x0) x1))
            ∗ owns (c : Thread nD τ) arg6 fullShare (k0_pay2 (k0_pay7 (tile i xs7) (k0_pay6 x0)) (k0_pay8 i x1))
            ∗ owns (c : Thread nD τ) arg7 fullShare xs7 ∗ owns (c : Thread nD τ) arg8 fullShare (k0_pay6 x0)) -∗ K ⟨⟩))
      ⊢ wp frame (wpE (defs₀ (F := F)) Variants.none c none) E (cc0__fused_kernel i arg2 harg2 arg3 harg3 arg4 harg4 arg5 harg5 arg6 harg6 arg7 harg7 arg8 harg8) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_unit0 (S := S1024) (e := .f32) arg5.view (harg5.unread xo3) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H4]
  · iexists _; isplitr; swap; · iexact H4
    ipureintro
    refine (read_writes_unit0 (S := S1024) (e := .f32) arg6.view (harg6.unread xo4) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H7]
  · iexists _; isplitr; · ipureintro; exact harg7.read_unread _
    iexact H7
  iexists _; isplitr; swap; · iexact H8
  ipureintro
  sl_unfold_words
  refine (read_writes_unit0 (S := S1024x256) (e := .bf16) arg8.view (harg8.unread xs8) ![0, 0] hz2 inb_S1024x256_S1024x256_0_0 _).trans ?_
  simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]

end Cert.Kernel.Body

end
-- ==== Proof.BitsRunD.lean ====
/-
  The body's run in case D (i ≠ 0, j ≠ 0). On whole memrefs holding the batch chunk's rows, its labels, the prototype
  tile, the two running maxima and the two scratch buffers, the body runs to the end; it hands back the inputs as they
  were, and each buffer it stores into at the payload of the store, as a function of what it loaded:
  tile j of the K-major scratch is read as it is;
  the normalised batch chunk is read as it is, and the tile's maxima are folded into the running ones.
-/
import proofs.«162377_g90082644066738_cont_sun_c4_21_26_alg».proof.Proof.BitsRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_D (c : Dev nD) (i : grid0.Coords) (arg2 : Memref sig .tc .vmem S1024x256 .f32) (harg2 : arg2.IsWhole) (arg3 : Memref sig .tc .vmem S1024 .i32) (harg3 : arg3.IsWhole) (arg4 : Memref sig .tc .vmem S2048x256 .f32) (harg4 : arg4.IsWhole) (arg5 : Memref sig .tc .vmem S1024 .f32) (harg5 : arg5.IsWhole) (arg6 : Memref sig .tc .vmem S1024 .f32) (harg6 : arg6.IsWhole) (arg7 : Memref sig .tc .vmem S8192x256 .bf16) (harg7 : arg7.IsWhole) (arg8 : Memref sig .tc .vmem S1024x256 .bf16) (harg8 : arg8.IsWhole) (hc1 : ¬cond1 i) (hc2 : ¬cond2 i) (hc3 : ¬cond3 i) (hc4 : cond4 i)
    (x0 : Vec F S1024x256 .f32) (x1 : Vec F S1024 .i32) (x2 : Vec F S2048x256 .f32) (xo3 : Vec F S1024 .f32) (xo4 : Vec F S1024 .f32) (xs7 : Vec F S8192x256 .bf16) (xs8 : Vec F S1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xs7 ∗ owns (c : Thread nD τ) arg8 fullShare xs8
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay9 i (tile i xs7) xs8 x1) xo3)
            ∗ owns (c : Thread nD τ) arg6 fullShare (k0_pay4 (k0_pay7 (tile i xs7) xs8) (k0_pay8 i x1) xo4)
            ∗ owns (c : Thread nD τ) arg7 fullShare xs7 ∗ owns (c : Thread nD τ) arg8 fullShare xs8) -∗ K ⟨⟩))
      ⊢ wp frame (wpE (defs₀ (F := F)) Variants.none c none) E (cc0__fused_kernel i arg2 harg2 arg3 harg3 arg4 harg4 arg5 harg5 arg6 harg6 arg7 harg7 arg8 harg8) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_unit0 (S := S1024) (e := .f32) arg5.view (harg5.unread xo3) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H4]
  · iexists _; isplitr; swap; · iexact H4
    ipureintro
    refine (read_writes_unit0 (S := S1024) (e := .f32) arg6.view (harg6.unread xo4) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H7]
  · iexists _; isplitr; · ipureintro; exact harg7.read_unread _
    iexact H7
  iexists _; isplitr; · ipureintro; exact harg8.read_unread _
  iexact H8

end Cert.Kernel.Body

end
-- ==== Proof.BitsState.lean ====
/-
  What the kernel holds after each grid point, in closed form, and the proof data built on it.

  Point t = 4 i + j. After point t:
    * tile j' of the K-major scratch, for every j' written so far (j' ≤ t in the first row, every j' later), is the
      prototype tile j' normalised and repacked — computed once, at point j' of the first row;
    * the batch-chunk scratch holds the chunk i normalised — computed at the row's first point 4 i;
    * the two output buffers hold the running maxima over tiles 0..j of chunk i: initialised at j = 0, folded at j ≠ 0.
-/
import proofs.«162377_g90082644066738_cont_sun_c4_21_26_alg».proof.Proof.BitsRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Tiles of the K-major scratch -/

/-- The first offset of a tile's rectangle: 2048 j. -/
theorem off2_zero (i : grid0.Coords) : (k0_off2 i) 0 = 2048 * (i 1).val := by rw [k0_off2_eq]; rfl
theorem off1_zero (i : grid0.Coords) : (k0_off1 i) 0 = 2048 * (i 1).val := by rw [k0_off1_eq]; rfl

/-- Reading tile `j` right after it was written gives what was written. -/
theorem tile_putTile_self (arg7 : Memref sig .tc .vmem S8192x256 .bf16) (harg7 : arg7.IsWhole) (i : grid0.Coords) (h1 : cond1 i)
    (X : Vec F S8192x256 .bf16) (w : Vec F S2048x256 .bf16) : tile i (putTile arg7 harg7 i h1 X w) = w := by
  funext x
  unfold tile putTile
  exact View.read_writes_cons_emb arg7.view (harg7.unread X) (Rect.unit (s := S8192x256) (k0_off1 i) S2048x256.size (k0_off1_inb i h1)) w [] x

/-- A tile reads the same at two points of one class-tile column. -/
theorem tile_congr (i i' : grid0.Coords) (h : (i' 1).val = (i 1).val) (X : Vec F S8192x256 .bf16) : tile i' X = tile i X := by
  funext x
  unfold tile
  show X _ = X _
  congr 1
  funext a
  apply Fin.ext
  show (k0_off2 i') a + 1 * (x a).val = (k0_off2 i) a + 1 * (x a).val
  rw [k0_off2_eq, k0_off2_eq, h]

/-- Writing tile `j` leaves every other tile as it was. -/
theorem tile_putTile_other (arg7 : Memref sig .tc .vmem S8192x256 .bf16) (harg7 : arg7.IsWhole) (i : grid0.Coords) (h1 : cond1 i)
    (X : Vec F S8192x256 .bf16) (w : Vec F S2048x256 .bf16) (i' : grid0.Coords) (hne : (i' 1).val ≠ (i 1).val) :
    tile i' (putTile arg7 harg7 i h1 X w) = tile i' X := by
  funext x
  unfold tile putTile
  show arg7.view.read (Elt F) (arg7.view.writes (Elt F) (harg7.unread X) [⟨Rect.unit (s := S8192x256) (k0_off1 i) S2048x256.size (k0_off1_inb i h1), w⟩])
      ((Rect.unit (s := S8192x256) (k0_off2 i') S2048x256.size (k0_off2_inb i')).emb x)
    = X ((Rect.unit (s := S8192x256) (k0_off2 i') S2048x256.size (k0_off2_inb i')).emb x)
  rw [View.writes_singleton, View.read_slice_write_of_not_mem _ _ _ _ ?_, harg7.read_unread]
  rw [Rect.map_emb_univ, Rect.mem_set_unit]
  intro hall
  have h0 := hall 0
  have hx : (x 0).val < 2048 := (x 0).isLt
  have e : (((Rect.unit (s := S8192x256) (k0_off2 i') S2048x256.size (k0_off2_inb i')).emb x) 0 : ℕ) = 2048 * (i' 1).val + 1 * (x 0).val := by
    rw [← off2_zero i']; rfl
  rw [e, off1_zero] at h0
  have h0' : 2048 * (i 1).val ≤ 2048 * (i' 1).val + 1 * (x 0).val ∧ 2048 * (i' 1).val + 1 * (x 0).val < 2048 * (i 1).val + 2048 := h0
  omega

/-! ## The named contents -/

theorem N16 : cfg0.N = 16 := N_0

/-- The point's class tile is its index mod 4 (the grid is walked row by row). -/
theorem hcoord1 : ∀ t : Fin cfg0.N, ((grid0.coords t) 1).val = t.val % 4 :=
  (by decide +kernel : ∀ t : Fin grid0.N, ((grid0.coords t) 1).val = t.val % 4)

/-- Point number `n`. -/
abbrev pt (n : ℕ) (h : n < 16) : Fin cfg0.N := ⟨n, lt_of_lt_of_eq h N16.symm⟩

/-- Prototype tile `j`, normalised and repacked K-major: what point `j` (of the first row) computes from its block. -/
def PK (c : Dev nD) (j : ℕ) (hj : j < 4) : Vec F S2048x256 .bf16 := k0_pay5 (iblk m c 2 (pt j (by omega)))
/-- The batch chunk of point `n`'s row, normalised: what the row's first point computes from its block. -/
def ZN (c : Dev nD) (n : ℕ) (hn : n < 16) : Vec F S1024x256 .bf16 := k0_pay6 (iblk m c 0 (pt (n - n % 4) (by omega)))

theorem t16 (t : Fin cfg0.N) : t.val < 16 := lt_of_lt_of_eq t.isLt N16

theorem PK_eq (c : Dev nD) (t : Fin cfg0.N) (hi : t.val / 4 = 0) (h) : PK m c (t.val % 4) h = k0_pay5 (iblk m c 2 t) := by
  unfold PK
  have e : pt (t.val % 4) (by have := t16 t; omega) = t := Fin.ext (by show t.val % 4 = t.val; omega)
  rw [e]
theorem ZN_eq (c : Dev nD) (t : Fin cfg0.N) (hj : t.val % 4 = 0) : ZN m c t.val (t16 t) = k0_pay6 (iblk m c 0 t) := by
  unfold ZN
  have e : pt (t.val - t.val % 4) (by have := t16 t; omega) = t := Fin.ext (by show t.val - t.val % 4 = t.val; omega)
  rw [e]
theorem ZN_step (c : Dev nD) (n : ℕ) (hn : n + 1 < 16) (hj : ¬ (n + 1) % 4 = 0) : ZN m c (n + 1) hn = ZN m c n (by omega) := by
  unfold ZN
  have e : pt (n + 1 - (n + 1) % 4) (by omega) = pt (n - n % 4) (by omega) := Fin.ext (by show n + 1 - (n + 1) % 4 = n - n % 4; omega)
  rw [e]

/-- The masked tile maxima at point `t`, over the named scratch contents. -/
def M43 (c : Dev nD) (t : Fin cfg0.N) : FVec F S256x1024 .bf16 :=
  k0_pay9 (grid0.coords t) (PK m c (t.val % 4) (Nat.mod_lt _ (by decide))) (ZN m c t.val (t16 t)) (iblk m c 1 t)
def M33 (c : Dev nD) (t : Fin cfg0.N) : FVec F S256x1024 .bf16 :=
  k0_pay7 (PK m c (t.val % 4) (Nat.mod_lt _ (by decide))) (ZN m c t.val (t16 t))
def M41 (c : Dev nD) (t : Fin cfg0.N) : IVec S256x1024 1 := k0_pay8 (grid0.coords t) (iblk m c 1 t)

/-- The running same-class maximum after point `n`. -/
def posAt (c : Dev nD) : (n : ℕ) → n < cfg0.N → Vec F S1024 .f32
  | 0, hn => k0_pay1 (M43 m c ⟨0, hn⟩)
  | n + 1, hn => if (n + 1) % 4 = 0 then k0_pay1 (M43 m c ⟨n + 1, hn⟩)
      else k0_pay3 (M43 m c ⟨n + 1, hn⟩) (posAt c n (Nat.lt_of_succ_lt hn))
/-- The running other-class maximum after point `n`. -/
def negAt (c : Dev nD) : (n : ℕ) → n < cfg0.N → Vec F S1024 .f32
  | 0, hn => k0_pay2 (M33 m c ⟨0, hn⟩) (M41 m c ⟨0, hn⟩)
  | n + 1, hn => if (n + 1) % 4 = 0 then k0_pay2 (M33 m c ⟨n + 1, hn⟩) (M41 m c ⟨n + 1, hn⟩)
      else k0_pay4 (M33 m c ⟨n + 1, hn⟩) (M41 m c ⟨n + 1, hn⟩) (negAt c n (Nat.lt_of_succ_lt hn))

theorem posAt_reset (c : Dev nD) (t : Fin cfg0.N) (hj : t.val % 4 = 0) : posAt m c t.val t.isLt = k0_pay1 (M43 m c t) := by
  obtain ⟨n, hn⟩ := t
  cases n with
  | zero => rfl
  | succ n => exact if_pos hj
theorem posAt_acc (c : Dev nD) (t : Fin cfg0.N) (hj : ¬ t.val % 4 = 0) :
    posAt m c t.val t.isLt = k0_pay3 (M43 m c t) (posAt m c (t.val - 1) (Nat.lt_of_le_of_lt (Nat.sub_le _ _) t.isLt)) := by
  obtain ⟨n, hn⟩ := t
  cases n with
  | zero => exact absurd (Nat.zero_mod _) hj
  | succ n => exact if_neg hj
theorem negAt_reset (c : Dev nD) (t : Fin cfg0.N) (hj : t.val % 4 = 0) : negAt m c t.val t.isLt = k0_pay2 (M33 m c t) (M41 m c t) := by
  obtain ⟨n, hn⟩ := t
  cases n with
  | zero => rfl
  | succ n => exact if_pos hj
theorem negAt_acc (c : Dev nD) (t : Fin cfg0.N) (hj : ¬ t.val % 4 = 0) :
    negAt m c t.val t.isLt = k0_pay4 (M33 m c t) (M41 m c t) (negAt m c (t.val - 1) (Nat.lt_of_le_of_lt (Nat.sub_le _ _) t.isLt)) := by
  obtain ⟨n, hn⟩ := t
  cases n with
  | zero => exact absurd (Nat.zero_mod _) hj
  | succ n => exact if_neg hj

/-! ## The scratch invariant -/

/-- Every tile written so far (tiles 0..n; all four once n ≥ 3) holds its named contents. -/
def Inv7 (c : Dev nD) (n : ℕ) (X7 : Vec F S8192x256 .bf16) : Prop :=
  ∀ (i' : grid0.Coords) (h : (i' 1).val < 4), (i' 1).val ≤ n → tile i' X7 = PK m c (i' 1).val h

theorem Inv7_mono (c : Dev nD) (n n' : ℕ) (hn : 3 ≤ n) (X7 : Vec F S8192x256 .bf16) (h : Inv7 m c n X7) : Inv7 m c n' X7 :=
  fun i' hi' _ => h i' hi' (by omega)

/-- The invariant before position `n`: the class's before the first point; afterwards the K-major scratch at some
    contents satisfying `Inv7`, the batch-chunk scratch at its named contents, the generator register at some state. -/
def PhiS (c : Dev nD) : (n : ℕ) → n ≤ cfg0.N → sProp 𝕄
  | 0, _ => Pipeline.ΦA spec0 c
  | n + 1, hn => iprop(iprop((∃ X7, ⌜Inv7 m c n X7⌝ ∗ owns (c : Thread nD τ) scM7 fullShare X7)
      ∗ owns (c : Thread nD τ) scM8 fullShare (ZN m c n (lt_of_lt_of_eq hn N16))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ X7, ⌜Inv7 m c n X7⌝ ∗ owns (c : Thread nD τ) scM7 fullShare X7)
      ∗ owns (c : Thread nD τ) scM8 fullShare (ZN m c n (lt_of_lt_of_eq hn N16))) ∗ (∃ r, prngReg c r)) := rfl
theorem PhiS_pos (c : Dev nD) (n : ℕ) (h : n ≤ cfg0.N) (hz : n ≠ 0) :
    PhiS m c n h = iprop(iprop((∃ X7, ⌜Inv7 m c (n - 1) X7⌝ ∗ owns (c : Thread nD τ) scM7 fullShare X7)
      ∗ owns (c : Thread nD τ) scM8 fullShare (ZN m c (n - 1) (by have := N16; omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => posAt m c t.val t.isLt
    | ⟨4, _⟩ => negAt m c t.val t.isLt
    | ⟨_ + 5, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = posAt m c t.val t.isLt := by dsimp only [dats]
theorem after4 (c : Dev nD) (t : Fin cfg0.N) : (dats m 0 c).after 4 t = negAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem idle3_all : ∀ i : grid0.Coords, cfg0.idle 3 i = false := by decide +kernel
theorem idle4_all : ∀ i : grid0.Coords, cfg0.idle 4 i = false := by decide +kernel

/-- At a point that is not a row's first the running maxima's buffers hold what the point before left. -/
theorem before3 (c : Dev nD) (t : Fin cfg0.N) (hj : ¬ t.val % 4 = 0) (d) :
    (dats m 0 c).before 3 t d = posAt m c (t.val - 1) (Nat.lt_of_le_of_lt (Nat.sub_le _ _) t.isLt) := by
  have ht : t.val ≠ 0 := fun h => hj (by rw [h])
  rw [(dats m 0 c).before_out_kept 3 rfl t ht
    (by rw [Bool.eq_false_iff]; intro h; have := (flush0_3 _).mp h; dsimp only at this; omega) idle3_all (fun _ _ => rfl) d, after3]
theorem before4 (c : Dev nD) (t : Fin cfg0.N) (hj : ¬ t.val % 4 = 0) (d) :
    (dats m 0 c).before 4 t d = negAt m c (t.val - 1) (Nat.lt_of_le_of_lt (Nat.sub_le _ _) t.isLt) := by
  have ht : t.val ≠ 0 := fun h => hj (by rw [h])
  rw [(dats m 0 c).before_out_kept 4 rfl t ht
    (by rw [Bool.eq_false_iff]; intro h; have := (flush0_4 _).mp h; dsimp only at this; omega) idle4_all (fun _ _ => rfl) d, after4]

end Cert.Kernel.Body

end
-- ==== Proof.BitsBody.lean ====
/-
  The body obligation at every grid point, the run, and the frame.

  At point t the invariant hands the body the two scratch buffers (at anything before the first point; afterwards the
  K-major scratch with every tile written so far at its named contents, and the batch chunk's scratch at the row's
  normalised chunk); the three input buffers hold their blocks; at a point that is not a row's first the two output
  buffers hold the running maxima the point before left. The case's run applies, and what it leaves is the next
  invariant and the named running maxima.
-/
import proofs.«162377_g90082644066738_cont_sun_c4_21_26_alg».proof.Proof.BitsState

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PK_congr (c : Dev nD) (j j' : ℕ) (e : j = j') (h : j < 4) (h' : j' < 4) : PK m c j h = PK m c j' h' := by
  subst e; rfl

theorem ZN_prev (c : Dev nD) (t : Fin cfg0.N) (hj : ¬ t.val % 4 = 0) :
    ZN m c t.val (t16 t) = ZN m c (t.val - 1) (by have := t16 t; omega) := by
  unfold ZN
  have e : pt (t.val - t.val % 4) (by have := t16 t; omega) = pt (t.val - 1 - (t.val - 1) % 4) (by have := t16 t; omega) :=
    Fin.ext (by show t.val - t.val % 4 = t.val - 1 - (t.val - 1) % 4; omega)
  rw [e]

/-- The tile of the point's own column, from the invariant. -/
theorem tile_of_inv (c : Dev nD) (t : Fin cfg0.N) (n : ℕ) (hn : 3 ≤ n) (X7 : Vec F S8192x256 .bf16) (h : Inv7 m c n X7) :
    tile (grid0.coords t) X7 = PK m c (t.val % 4) (Nat.mod_lt _ (by decide)) :=
  (h (grid0.coords t) (by rw [hcoord1]; exact Nat.mod_lt _ (by decide)) (by rw [hcoord1]; have := Nat.mod_lt t.val (by decide : 0 < 4); omega)).trans
    (PK_congr m c _ _ (hcoord1 t) _ _)

/-- Writing point t's tile (t in the first row) extends the invariant to tile t. -/
theorem Inv7_put (c : Dev nD) (t : Fin cfg0.N) (hi : t.val / 4 = 0) (hc1 : cond1 (grid0.coords t)) (X7 : Vec F S8192x256 .bf16)
    (hprev : ∀ (i' : grid0.Coords) (h : (i' 1).val < 4), (i' 1).val < t.val → tile i' X7 = PK m c (i' 1).val h) :
    Inv7 m c t.val (putTile scM7 hsc7 (grid0.coords t) hc1 X7 (k0_pay5 (iblk m c 2 t))) := by
  intro i' h hle
  by_cases e : (i' 1).val = ((grid0.coords t) 1).val
  · rw [tile_congr (grid0.coords t) i' e, tile_putTile_self]
    have e' : (i' 1).val = t.val % 4 := e.trans (hcoord1 t)
    have h4 : t.val % 4 < 4 := Nat.mod_lt _ (by decide)
    exact ((PK_congr m c _ _ e' h h4).trans (PK_eq m c t hi h4)).symm
  · rw [tile_putTile_other _ _ _ _ _ _ i' e]
    have := hcoord1 t
    exact hprev i' h (by omega)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 16 := t16 t
  by_cases hi : t.val / 4 = 0
  · have hc1 : cond1 (grid0.coords t) := (hcond1 t).mpr hi
    by_cases hj : t.val % 4 = 0
    · -- the first point: both scratch buffers at anything
      have hc2 : cond2 (grid0.coords t) := (hcond2 t).mpr hj
      have hc3 : cond3 (grid0.coords t) := (hcond3 t).mpr hj
      have hc4 : ¬cond4 (grid0.coords t) := fun h => (hcond4 t).mp h hj
      have hz : t.val = 0 := by omega
      rw [posAt_reset m c t hj, negAt_reset m c t hj]
      simp only [M43, M33, M41]
      rw [PK_eq m c t hi, ZN_eq m c t hj]
      rw [PhiS_castSucc m c t, PhiS_zero m c _ _ hz, PhiA_eq]
      iintro ⟨⟨⟨⟨%d7, HS7⟩, ⟨%d8, HS8⟩⟩, Hg⟩, Ho, ⟨%d0, H0⟩, ⟨%d1, H1⟩, ⟨%d2, H2⟩, ⟨%d3, H3⟩, ⟨%d4, H4⟩⟩
      iapply (run_A c (grid0.coords t) (ms0 t) (hs0 t) (ms1 t) (hs1 t) (ms2 t) (hs2 t) (ms3 t) (hs3 t) (ms4 t) (hs4 t) scM7 hsc7 scM8 hsc8 hc1 hc2 hc3 hc4 (iblk m c 0 t) (iblk m c 1 t) (iblk m c 2 t) ((dats m 0 c).before 3 t d3) ((dats m 0 c).before 4 t d4) d7 d8 Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, H7, H8⟩
      isplitl [H7 H8 Hg]
      · isplitl [H7 H8]
        · isplitl [H7]
          · iexists _; isplitr; swap; · iexact H7
            ipureintro
            exact Inv7_put m c t hi hc1 d7 (fun i' h hlt => absurd hlt (by omega))
          iexact H8
        iexact Hg
      isplitl [Ho]; · iexact Ho
      isplitl [H0]; · iexact H0
      isplitl [H1]; · iexact H1
      isplitl [H2]; · iexact H2
      isplitl [H3]; · iexact H3
      iexact H4
    · -- the first row, after its first point
      have hc2 : ¬cond2 (grid0.coords t) := fun h => hj ((hcond2 t).mp h)
      have hc3 : ¬cond3 (grid0.coords t) := fun h => hj ((hcond3 t).mp h)
      have hc4 : cond4 (grid0.coords t) := (hcond4 t).mpr hj
      have hz : t.val ≠ 0 := by omega
      rw [posAt_acc m c t hj, negAt_acc m c t hj]
      simp only [M43, M33, M41]
      rw [PK_eq m c t hi, ZN_prev m c t hj]
      rw [PhiS_castSucc m c t, PhiS_pos m c _ _ hz]
      simp only [before3 m c t hj, before4 m c t hj]
      iintro ⟨⟨⟨⟨%X7, %hInv, HS7⟩, HS8⟩, Hg⟩, Ho, ⟨%d0, H0⟩, ⟨%d1, H1⟩, ⟨%d2, H2⟩, ⟨%d3, H3⟩, ⟨%d4, H4⟩⟩
      iapply (run_B c (grid0.coords t) (ms0 t) (hs0 t) (ms1 t) (hs1 t) (ms2 t) (hs2 t) (ms3 t) (hs3 t) (ms4 t) (hs4 t) scM7 hsc7 scM8 hsc8 hc1 hc2 hc3 hc4 (iblk m c 0 t) (iblk m c 1 t) (iblk m c 2 t) (posAt m c (t.val - 1) (Nat.lt_of_le_of_lt (Nat.sub_le _ _) t.isLt)) (negAt m c (t.val - 1) (Nat.lt_of_le_of_lt (Nat.sub_le _ _) t.isLt)) X7 (ZN m c (t.val - 1) (by omega)) Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, H7, H8⟩
      isplitl [H7 H8 Hg]
      · isplitl [H7 H8]
        · isplitl [H7]
          · iexists _; isplitr; swap; · iexact H7
            ipureintro
            exact Inv7_put m c t hi hc1 X7 (fun i' h hlt => hInv i' h (by omega))
          iexact H8
        iexact Hg
      isplitl [Ho]; · iexact Ho
      isplitl [H0]; · iexact H0
      isplitl [H1]; · iexact H1
      isplitl [H2]; · iexact H2
      isplitl [H3]; · iexact H3
      iexact H4
  · have hc1 : ¬cond1 (grid0.coords t) := fun h => hi ((hcond1 t).mp h)
    have hz : t.val ≠ 0 := by omega
    by_cases hj : t.val % 4 = 0
    · -- a later row's first point
      have hc2 : cond2 (grid0.coords t) := (hcond2 t).mpr hj
      have hc3 : cond3 (grid0.coords t) := (hcond3 t).mpr hj
      have hc4 : ¬cond4 (grid0.coords t) := fun h => (hcond4 t).mp h hj
      rw [posAt_reset m c t hj, negAt_reset m c t hj]
      simp only [M43, M33, M41]
      rw [ZN_eq m c t hj]
      rw [PhiS_castSucc m c t, PhiS_pos m c _ _ hz]
      iintro ⟨⟨⟨⟨%X7, %hInv, HS7⟩, HS8⟩, Hg⟩, Ho, ⟨%d0, H0⟩, ⟨%d1, H1⟩, ⟨%d2, H2⟩, ⟨%d3, H3⟩, ⟨%d4, H4⟩⟩
      have hT := tile_of_inv m c t (t.val - 1) (by omega) X7 hInv
      iapply (run_C c (grid0.coords t) (ms0 t) (hs0 t) (ms1 t) (hs1 t) (ms2 t) (hs2 t) (ms3 t) (hs3 t) (ms4 t) (hs4 t) scM7 hsc7 scM8 hsc8 hc1 hc2 hc3 hc4 (iblk m c 0 t) (iblk m c 1 t) (iblk m c 2 t) ((dats m 0 c).before 3 t d3) ((dats m 0 c).before 4 t d4) X7 (ZN m c (t.val - 1) (by omega)) Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, H7, H8⟩
      rw [hT]
      isplitl [H7 H8 Hg]
      · isplitl [H7 H8]
        · isplitl [H7]
          · iexists _; isplitr; swap; · iexact H7
            ipureintro
            exact Inv7_mono m c (t.val - 1) t.val (by omega) X7 hInv
          iexact H8
        iexact Hg
      isplitl [Ho]; · iexact Ho
      isplitl [H0]; · iexact H0
      isplitl [H1]; · iexact H1
      isplitl [H2]; · iexact H2
      isplitl [H3]; · iexact H3
      iexact H4
    · -- a later row, after its first point
      have hc2 : ¬cond2 (grid0.coords t) := fun h => hj ((hcond2 t).mp h)
      have hc3 : ¬cond3 (grid0.coords t) := fun h => hj ((hcond3 t).mp h)
      have hc4 : cond4 (grid0.coords t) := (hcond4 t).mpr hj
      rw [posAt_acc m c t hj, negAt_acc m c t hj]
      simp only [M43, M33, M41]
      rw [ZN_prev m c t hj]
      rw [PhiS_castSucc m c t, PhiS_pos m c _ _ hz]
      simp only [before3 m c t hj, before4 m c t hj]
      iintro ⟨⟨⟨⟨%X7, %hInv, HS7⟩, HS8⟩, Hg⟩, Ho, ⟨%d0, H0⟩, ⟨%d1, H1⟩, ⟨%d2, H2⟩, ⟨%d3, H3⟩, ⟨%d4, H4⟩⟩
      have hT := tile_of_inv m c t (t.val - 1) (by omega) X7 hInv
      iapply (run_D c (grid0.coords t) (ms0 t) (hs0 t) (ms1 t) (hs1 t) (ms2 t) (hs2 t) (ms3 t) (hs3 t) (ms4 t) (hs4 t) scM7 hsc7 scM8 hsc8 hc1 hc2 hc3 hc4 (iblk m c 0 t) (iblk m c 1 t) (iblk m c 2 t) (posAt m c (t.val - 1) (Nat.lt_of_le_of_lt (Nat.sub_le _ _) t.isLt)) (negAt m c (t.val - 1) (Nat.lt_of_le_of_lt (Nat.sub_le _ _) t.isLt)) X7 (ZN m c (t.val - 1) (by omega)) Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, H7, H8⟩
      rw [hT]
      isplitl [H7 H8 Hg]
      · isplitl [H7 H8]
        · isplitl [H7]
          · iexists _; isplitr; swap; · iexact H7
            ipureintro
            exact Inv7_mono m c (t.val - 1) t.val (by omega) X7 hInv
          iexact H8
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N16; omega), PhiA_eq]
  iintro ⟨⟨⟨%X7, %hInv, HS7⟩, HS8⟩, Hg⟩
  isplitl [HS7 HS8]
  · isplitl [HS7]
    · iexists _; iexact HS7
    iexists _; iexact HS8
  iexact Hg

/-! ## The run and the frame -/

/-- Every weakly fair execution of @main terminates without a fault, every array of the pipeline ends at what the
    library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs, and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealCommon.lean ====
/-
  The fused kernel's body, case by case: what is shared by the four cases.

  The grid is 4 x 4, walked row by row: point t = 4 i + j, where i is the batch chunk and j the class tile.
  The body branches on i = 0 (normalise and repack the prototype tile into the K-major scratch), on j = 0
  (normalise the batch chunk into its scratch; initialise the two running maxima) and on j ≠ 0 (fold the
  tile's maxima into the running ones). So a point is in one of four cases:
    A: i = 0, j = 0     B: i = 0, j ≠ 0     C: i ≠ 0, j = 0     D: i ≠ 0, j ≠ 0.
-/
import proofs.«162377_g90082644066738_cont_sun_c4_21_26_alg».proof.Proof.Gen.KernelIdeal.Frame
import proofs.«162377_g90082644066738_cont_sun_c4_21_26_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The four branch conditions, decided over the grid -/

/-- "i = 0", as the body computes it. -/
abbrev cond1 (i : grid0.Coords) : Prop := k0_cond1 i = 1#1
/-- "j = 0", as the body computes it at the second branch (the scalar chain spelt out). -/
abbrev cond2 (i : grid0.Coords) : Prop :=
  (Scalar.cmpi .ne (Scalar.extui (Scalar.cmpi .eq (BitVec.ofNat 32 (i 1).val) 0#32)) 0#32) = 1#1
/-- "j = 0" at the third branch. -/
abbrev cond3 (i : grid0.Coords) : Prop := k0_cond3 i = 1#1
/-- "j ≠ 0" at the fourth. -/
abbrev cond4 (i : grid0.Coords) : Prop := k0_cond4 i = 1#1

theorem hcond1 : ∀ t : Fin cfg0.N, cond1 (grid0.coords t) ↔ t.val / 4 = 0 :=
  (by decide +kernel : ∀ t : Fin grid0.N, cond1 (grid0.coords t) ↔ t.val / 4 = 0)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ t.val % 4 = 0 :=
  (by decide +kernel : ∀ t : Fin grid0.N, cond3 (grid0.coords t) ↔ t.val % 4 = 0)
theorem hcond4 : ∀ t : Fin cfg0.N, cond4 (grid0.coords t) ↔ ¬ t.val % 4 = 0 :=
  (by decide +kernel : ∀ t : Fin grid0.N, cond4 (grid0.coords t) ↔ ¬ t.val % 4 = 0)

/-! ## The outputs are never idle: one of the two stores happens at every point -/

theorem live3 : ∀ t : Fin cfg0.N, cfg0.idle 3 (grid0.coords t) = false := by decide +kernel
theorem live4 : ∀ t : Fin cfg0.N, cfg0.idle 4 (grid0.coords t) = false := by decide +kernel
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
/-- The K-major prototype scratch (all four tiles) and the normalised batch chunk's scratch. -/
abbrev scM7 : Memref sig .tc .vmem S8192x256 .bf16 := Memref.whole cc0_scratch0
abbrev scM8 : Memref sig .tc .vmem S1024x256 .bf16 := Memref.whole cc0_scratch1
abbrev hsc7 : (scM7).IsWhole := Memref.isWhole_whole _
abbrev hsc8 : (scM8).IsWhole := Memref.isWhole_whole _
/-- Views through which an output's and a scratch's contents are stated. -/
abbrev VO3 : View sig .tc .vmem S1024 .f32 := (Memref.whole cc0_stg3_0 : Memref sig .tc .vmem S1024 .f32).view
abbrev VS7 : View sig .tc .vmem S8192x256 .bf16 := scM7.view
abbrev VS8 : View sig .tc .vmem S1024x256 .bf16 := scM8.view

/-- Tile `j` (the point's second coordinate) of the K-major scratch: its rows [2048 j, 2048 (j + 1)). -/
def tile (i : grid0.Coords) (X : Vec F S8192x256 .bf16) : Vec F S2048x256 .bf16 :=
  View.ld X (Rect.unit (s := S8192x256) (k0_off2 i) S2048x256.size (k0_off2_inb i))

/-- The scratch after tile `j` is overwritten with `w`: read back through the scratch's own view. -/
def putTile (arg7 : Memref sig .tc .vmem S8192x256 .bf16) (harg7 : arg7.IsWhole) (i : grid0.Coords) (h1 : cond1 i)
    (X : Vec F S8192x256 .bf16) (w : Vec F S2048x256 .bf16) : Vec F S8192x256 .bf16 :=
  arg7.view.read (Elt F) (arg7.view.writes (Elt F) (harg7.unread X)
    [⟨Rect.unit (s := S8192x256) (k0_off1 i) S2048x256.size (k0_off1_inb i h1), w⟩])

theorem hz1 : (![0] : Fin 1 → ℕ) = fun _ => 0 := by funext a; fin_cases a; rfl
theorem hz2 : (![0, 0] : Fin 2 → ℕ) = fun _ => 0 := by funext a; fin_cases a <;> rfl

/-- One store through the whole-shape rectangle at zero offsets leaves its payload, whatever was there. -/
theorem read_writes_unit0 {κ : Kind} {sp : Space} {S : Shape} {e : EltTy} (v : View sig κ sp S e) (f : v.ty.Contents (Elt F))
    (off : Fin S.rank → ℕ) (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- A load through the whole-shape rectangle at zero offsets of a whole memref holding `X` reads `X`. -/
theorem readAt_unit0 {κ : Kind} {sp : Space} {S : Shape} {e : EltTy} (m : Memref sig κ sp S e) (hm : m.IsWhole) (X : S.Idx → Elt F e)
    (off : Fin S.rank → ℕ) (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

/-- The class invariant, with the two scratch buffers as memrefs owned at some contents. -/
theorem PhiA_eq (c : Dev nD) :
    (Pipeline.ΦA spec0 c : sProp 𝕄)
      = iprop(iprop((∃ d, owns (c : Thread nD τ) scM7 fullShare d) ∗ (∃ d, owns (c : Thread nD τ) scM8 fullShare d)) ∗ (∃ r, prngReg c r)) := by
  unfold Pipeline.ΦA; rw [scopedRest0_eq]; simp only [scM7, scM8, owns_whole]; try rfl

end Cert.KernelIdeal.Body

end
-- ==== Proof.IdealRunA.lean ====
/-
  The body's run in case A (i = 0, j = 0). On whole memrefs holding the batch chunk's rows, its labels, the prototype
  tile, the two running maxima and the two scratch buffers, the body runs to the end; it hands back the inputs as they
  were, and each buffer it stores into at the payload of the store, as a function of what it loaded:
  the prototype tile normalised and repacked K-major is written over tile j of its scratch;
  the batch chunk normalised is written into its scratch and the two maxima are initialised.
-/
import proofs.«162377_g90082644066738_cont_sun_c4_21_26_alg».proof.Proof.IdealCommon

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem run_A (c : Dev nD) (i : grid0.Coords) (arg2 : Memref sig .tc .vmem S1024x256 .f32) (harg2 : arg2.IsWhole) (arg3 : Memref sig .tc .vmem S1024 .i32) (harg3 : arg3.IsWhole) (arg4 : Memref sig .tc .vmem S2048x256 .f32) (harg4 : arg4.IsWhole) (arg5 : Memref sig .tc .vmem S1024 .f32) (harg5 : arg5.IsWhole) (arg6 : Memref sig .tc .vmem S1024 .f32) (harg6 : arg6.IsWhole) (arg7 : Memref sig .tc .vmem S8192x256 .bf16) (harg7 : arg7.IsWhole) (arg8 : Memref sig .tc .vmem S1024x256 .bf16) (harg8 : arg8.IsWhole) (hc1 : cond1 i) (hc2 : cond2 i) (hc3 : cond3 i) (hc4 : ¬cond4 i)
    (x0 : Vec F S1024x256 .f32) (x1 : Vec F S1024 .i32) (x2 : Vec F S2048x256 .f32) (xo3 : Vec F S1024 .f32) (xo4 : Vec F S1024 .f32) (xs7 : Vec F S8192x256 .bf16) (xs8 : Vec F S1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xs7 ∗ owns (c : Thread nD τ) arg8 fullShare xs8
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay9 i (k0_pay5 x2) (k0_pay6 x0) x1))
            ∗ owns (c : Thread nD τ) arg6 fullShare (k0_pay2 (k0_pay7 (k0_pay5 x2) (k0_pay6 x0)) (k0_pay8 i x1))
            ∗ owns (c : Thread nD τ) arg7 fullShare (putTile arg7 harg7 i hc1 xs7 (k0_pay5 x2)) ∗ owns (c : Thread nD τ) arg8 fullShare (k0_pay6 x0)) -∗ K ⟨⟩))
      ⊢ wp frame (wpE (defs₀ (F := F)) Variants.none c none) E (cc0__fused_kernel i arg2 harg2 arg3 harg3 arg4 harg4 arg5 harg5 arg6 harg6 arg7 harg7 arg8 harg8) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_unit0 (S := S1024) (e := .f32) arg5.view (harg5.unread xo3) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H4]
  · iexists _; isplitr; swap; · iexact H4
    ipureintro
    refine (read_writes_unit0 (S := S1024) (e := .f32) arg6.view (harg6.unread xo4) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H7]
  · iexists _; isplitr; swap; · iexact H7
    ipureintro
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  iexists _; isplitr; swap; · iexact H8
  ipureintro
  sl_unfold_words
  refine (read_writes_unit0 (S := S1024x256) (e := .bf16) arg8.view (harg8.unread xs8) ![0, 0] hz2 inb_S1024x256_S1024x256_0_0 _).trans ?_
  simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]

end Cert.KernelIdeal.Body

end
-- ==== Proof.IdealRunB.lean ====
/-
  The body's run in case B (i = 0, j ≠ 0). On whole memrefs holding the batch chunk's rows, its labels, the prototype
  tile, the two running maxima and the two scratch buffers, the body runs to the end; it hands back the inputs as they
  were, and each buffer it stores into at the payload of the store, as a function of what it loaded:
  the prototype tile normalised and repacked K-major is written over tile j of its scratch;
  the normalised batch chunk is read as it is, and the tile's maxima are folded into the running ones.
-/
import proofs.«162377_g90082644066738_cont_sun_c4_21_26_alg».proof.Proof.IdealRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem run_B (c : Dev nD) (i : grid0.Coords) (arg2 : Memref sig .tc .vmem S1024x256 .f32) (harg2 : arg2.IsWhole) (arg3 : Memref sig .tc .vmem S1024 .i32) (harg3 : arg3.IsWhole) (arg4 : Memref sig .tc .vmem S2048x256 .f32) (harg4 : arg4.IsWhole) (arg5 : Memref sig .tc .vmem S1024 .f32) (harg5 : arg5.IsWhole) (arg6 : Memref sig .tc .vmem S1024 .f32) (harg6 : arg6.IsWhole) (arg7 : Memref sig .tc .vmem S8192x256 .bf16) (harg7 : arg7.IsWhole) (arg8 : Memref sig .tc .vmem S1024x256 .bf16) (harg8 : arg8.IsWhole) (hc1 : cond1 i) (hc2 : ¬cond2 i) (hc3 : ¬cond3 i) (hc4 : cond4 i)
    (x0 : Vec F S1024x256 .f32) (x1 : Vec F S1024 .i32) (x2 : Vec F S2048x256 .f32) (xo3 : Vec F S1024 .f32) (xo4 : Vec F S1024 .f32) (xs7 : Vec F S8192x256 .bf16) (xs8 : Vec F S1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xs7 ∗ owns (c : Thread nD τ) arg8 fullShare xs8
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay9 i (k0_pay5 x2) xs8 x1) xo3)
            ∗ owns (c : Thread nD τ) arg6 fullShare (k0_pay4 (k0_pay7 (k0_pay5 x2) xs8) (k0_pay8 i x1) xo4)
            ∗ owns (c : Thread nD τ) arg7 fullShare (putTile arg7 harg7 i hc1 xs7 (k0_pay5 x2)) ∗ owns (c : Thread nD τ) arg8 fullShare xs8) -∗ K ⟨⟩))
      ⊢ wp frame (wpE (defs₀ (F := F)) Variants.none c none) E (cc0__fused_kernel i arg2 harg2 arg3 harg3 arg4 harg4 arg5 harg5 arg6 harg6 arg7 harg7 arg8 harg8) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_unit0 (S := S1024) (e := .f32) arg5.view (harg5.unread xo3) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H4]
  · iexists _; isplitr; swap; · iexact H4
    ipureintro
    refine (read_writes_unit0 (S := S1024) (e := .f32) arg6.view (harg6.unread xo4) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H7]
  · iexists _; isplitr; swap; · iexact H7
    ipureintro
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  iexists _; isplitr; · ipureintro; exact harg8.read_unread _
  iexact H8

end Cert.KernelIdeal.Body

end
-- ==== Proof.IdealRunC.lean ====
/-
  The body's run in case C (i ≠ 0, j = 0). On whole memrefs holding the batch chunk's rows, its labels, the prototype
  tile, the two running maxima and the two scratch buffers, the body runs to the end; it hands back the inputs as they
  were, and each buffer it stores into at the payload of the store, as a function of what it loaded:
  tile j of the K-major scratch is read as it is;
  the batch chunk normalised is written into its scratch and the two maxima are initialised.
-/
import proofs.«162377_g90082644066738_cont_sun_c4_21_26_alg».proof.Proof.IdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem run_C (c : Dev nD) (i : grid0.Coords) (arg2 : Memref sig .tc .vmem S1024x256 .f32) (harg2 : arg2.IsWhole) (arg3 : Memref sig .tc .vmem S1024 .i32) (harg3 : arg3.IsWhole) (arg4 : Memref sig .tc .vmem S2048x256 .f32) (harg4 : arg4.IsWhole) (arg5 : Memref sig .tc .vmem S1024 .f32) (harg5 : arg5.IsWhole) (arg6 : Memref sig .tc .vmem S1024 .f32) (harg6 : arg6.IsWhole) (arg7 : Memref sig .tc .vmem S8192x256 .bf16) (harg7 : arg7.IsWhole) (arg8 : Memref sig .tc .vmem S1024x256 .bf16) (harg8 : arg8.IsWhole) (hc1 : ¬cond1 i) (hc2 : cond2 i) (hc3 : cond3 i) (hc4 : ¬cond4 i)
    (x0 : Vec F S1024x256 .f32) (x1 : Vec F S1024 .i32) (x2 : Vec F S2048x256 .f32) (xo3 : Vec F S1024 .f32) (xo4 : Vec F S1024 .f32) (xs7 : Vec F S8192x256 .bf16) (xs8 : Vec F S1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xs7 ∗ owns (c : Thread nD τ) arg8 fullShare xs8
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay9 i (tile i xs7) (k0_pay6 x0) x1))
            ∗ owns (c : Thread nD τ) arg6 fullShare (k0_pay2 (k0_pay7 (tile i xs7) (k0_pay6 x0)) (k0_pay8 i x1))
            ∗ owns (c : Thread nD τ) arg7 fullShare xs7 ∗ owns (c : Thread nD τ) arg8 fullShare (k0_pay6 x0)) -∗ K ⟨⟩))
      ⊢ wp frame (wpE (defs₀ (F := F)) Variants.none c none) E (cc0__fused_kernel i arg2 harg2 arg3 harg3 arg4 harg4 arg5 harg5 arg6 harg6 arg7 harg7 arg8 harg8) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_unit0 (S := S1024) (e := .f32) arg5.view (harg5.unread xo3) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H4]
  · iexists _; isplitr; swap; · iexact H4
    ipureintro
    refine (read_writes_unit0 (S := S1024) (e := .f32) arg6.view (harg6.unread xo4) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H7]
  · iexists _; isplitr; · ipureintro; exact harg7.read_unread _
    iexact H7
  iexists _; isplitr; swap; · iexact H8
  ipureintro
  sl_unfold_words
  refine (read_writes_unit0 (S := S1024x256) (e := .bf16) arg8.view (harg8.unread xs8) ![0, 0] hz2 inb_S1024x256_S1024x256_0_0 _).trans ?_
  simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]

end Cert.KernelIdeal.Body

end
-- ==== Proof.IdealRunD.lean ====
/-
  The body's run in case D (i ≠ 0, j ≠ 0). On whole memrefs holding the batch chunk's rows, its labels, the prototype
  tile, the two running maxima and the two scratch buffers, the body runs to the end; it hands back the inputs as they
  were, and each buffer it stores into at the payload of the store, as a function of what it loaded:
  tile j of the K-major scratch is read as it is;
  the normalised batch chunk is read as it is, and the tile's maxima are folded into the running ones.
-/
import proofs.«162377_g90082644066738_cont_sun_c4_21_26_alg».proof.Proof.IdealRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem run_D (c : Dev nD) (i : grid0.Coords) (arg2 : Memref sig .tc .vmem S1024x256 .f32) (harg2 : arg2.IsWhole) (arg3 : Memref sig .tc .vmem S1024 .i32) (harg3 : arg3.IsWhole) (arg4 : Memref sig .tc .vmem S2048x256 .f32) (harg4 : arg4.IsWhole) (arg5 : Memref sig .tc .vmem S1024 .f32) (harg5 : arg5.IsWhole) (arg6 : Memref sig .tc .vmem S1024 .f32) (harg6 : arg6.IsWhole) (arg7 : Memref sig .tc .vmem S8192x256 .bf16) (harg7 : arg7.IsWhole) (arg8 : Memref sig .tc .vmem S1024x256 .bf16) (harg8 : arg8.IsWhole) (hc1 : ¬cond1 i) (hc2 : ¬cond2 i) (hc3 : ¬cond3 i) (hc4 : cond4 i)
    (x0 : Vec F S1024x256 .f32) (x1 : Vec F S1024 .i32) (x2 : Vec F S2048x256 .f32) (xo3 : Vec F S1024 .f32) (xo4 : Vec F S1024 .f32) (xs7 : Vec F S8192x256 .bf16) (xs8 : Vec F S1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xs7 ∗ owns (c : Thread nD τ) arg8 fullShare xs8
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay9 i (tile i xs7) xs8 x1) xo3)
            ∗ owns (c : Thread nD τ) arg6 fullShare (k0_pay4 (k0_pay7 (tile i xs7) xs8) (k0_pay8 i x1) xo4)
            ∗ owns (c : Thread nD τ) arg7 fullShare xs7 ∗ owns (c : Thread nD τ) arg8 fullShare xs8) -∗ K ⟨⟩))
      ⊢ wp frame (wpE (defs₀ (F := F)) Variants.none c none) E (cc0__fused_kernel i arg2 harg2 arg3 harg3 arg4 harg4 arg5 harg5 arg6 harg6 arg7 harg7 arg8 harg8) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_unit0 (S := S1024) (e := .f32) arg5.view (harg5.unread xo3) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H4]
  · iexists _; isplitr; swap; · iexact H4
    ipureintro
    refine (read_writes_unit0 (S := S1024) (e := .f32) arg6.view (harg6.unread xo4) ![0] hz1 inb_S1024_S1024_0 _).trans ?_
    sl_unfold_words
    simp only [readAt_unit0 (S := S1024) (e := .f32) _ _ _ ![0] hz1, readAt_unit0 (S := S1024) (e := .i32) _ _ _ ![0] hz1, readAt_unit0 (S := S1024x256) _ _ _ ![0, 0] hz2, readAt_unit0 (S := S2048x256) _ _ _ ![0, 0] hz2, View.readAt_eq_ld, Memref.IsWhole.read_unread, View.readCov_cons_toLoadRect, View.readCov_unit_zero (S := S1024x256) _ hz2, tile, putTile, k0_off1, k0_off2]
  isplitl [H7]
  · iexists _; isplitr; · ipureintro; exact harg7.read_unread _
    iexact H7
  iexists _; isplitr; · ipureintro; exact harg8.read_unread _
  iexact H8

end Cert.KernelIdeal.Body

end
-- ==== Proof.IdealState.lean ====
/-
  What the kernel holds after each grid point, in closed form, and the proof data built on it.

  Point t = 4 i + j. After point t:
    * tile j' of the K-major scratch, for every j' written so far (j' ≤ t in the first row, every j' later), is the
      prototype tile j' normalised and repacked — computed once, at point j' of the first row;
    * the batch-chunk scratch holds the chunk i normalised — computed at the row's first point 4 i;
    * the two output buffers hold the running maxima over tiles 0..j of chunk i: initialised at j = 0, folded at j ≠ 0.
-/
import proofs.«162377_g90082644066738_cont_sun_c4_21_26_alg».proof.Proof.IdealRunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Tiles of the K-major scratch -/

/-- The first offset of a tile's rectangle: 2048 j. -/
theorem off2_zero (i : grid0.Coords) : (k0_off2 i) 0 = 2048 * (i 1).val := by rw [k0_off2_eq]; rfl
theorem off1_zero (i : grid0.Coords) : (k0_off1 i) 0 = 2048 * (i 1).val := by rw [k0_off1_eq]; rfl

/-- Reading tile `j` right after it was written gives what was written. -/
theorem tile_putTile_self (arg7 : Memref sig .tc .vmem S8192x256 .bf16) (harg7 : arg7.IsWhole) (i : grid0.Coords) (h1 : cond1 i)
    (X : Vec F S8192x256 .bf16) (w : Vec F S2048x256 .bf16) : tile i (putTile arg7 harg7 i h1 X w) = w := by
  funext x
  unfold tile putTile
  exact View.read_writes_cons_emb arg7.view (harg7.unread X) (Rect.unit (s := S8192x256) (k0_off1 i) S2048x256.size (k0_off1_inb i h1)) w [] x

/-- A tile reads the same at two points of one class-tile column. -/
theorem tile_congr (i i' : grid0.Coords) (h : (i' 1).val = (i 1).val) (X : Vec F S8192x256 .bf16) : tile i' X = tile i X := by
  funext x
  unfold tile
  show X _ = X _
  congr 1
  funext a
  apply Fin.ext
  show (k0_off2 i') a + 1 * (x a).val = (k0_off2 i) a + 1 * (x a).val
  rw [k0_off2_eq, k0_off2_eq, h]

/-- Writing tile `j` leaves every other tile as it was. -/
theorem tile_putTile_other (arg7 : Memref sig .tc .vmem S8192x256 .bf16) (harg7 : arg7.IsWhole) (i : grid0.Coords) (h1 : cond1 i)
    (X : Vec F S8192x256 .bf16) (w : Vec F S2048x256 .bf16) (i' : grid0.Coords) (hne : (i' 1).val ≠ (i 1).val) :
    tile i' (putTile arg7 harg7 i h1 X w) = tile i' X := by
  funext x
  unfold tile putTile
  show arg7.view.read (Elt F) (arg7.view.writes (Elt F) (harg7.unread X) [⟨Rect.unit (s := S8192x256) (k0_off1 i) S2048x256.size (k0_off1_inb i h1), w⟩])
      ((Rect.unit (s := S8192x256) (k0_off2 i') S2048x256.size (k0_off2_inb i')).emb x)
    = X ((Rect.unit (s := S8192x256) (k0_off2 i') S2048x256.size (k0_off2_inb i')).emb x)
  rw [View.writes_singleton, View.read_slice_write_of_not_mem _ _ _ _ ?_, harg7.read_unread]
  rw [Rect.map_emb_univ, Rect.mem_set_unit]
  intro hall
  have h0 := hall 0
  have hx : (x 0).val < 2048 := (x 0).isLt
  have e : (((Rect.unit (s := S8192x256) (k0_off2 i') S2048x256.size (k0_off2_inb i')).emb x) 0 : ℕ) = 2048 * (i' 1).val + 1 * (x 0).val := by
    rw [← off2_zero i']; rfl
  rw [e, off1_zero] at h0
  have h0' : 2048 * (i 1).val ≤ 2048 * (i' 1).val + 1 * (x 0).val ∧ 2048 * (i' 1).val + 1 * (x 0).val < 2048 * (i 1).val + 2048 := h0
  omega

/-! ## The named contents -/

theorem N16 : cfg0.N = 16 := N_0

/-- The point's class tile is its index mod 4 (the grid is walked row by row). -/
theorem hcoord1 : ∀ t : Fin cfg0.N, ((grid0.coords t) 1).val = t.val % 4 :=
  (by decide +kernel : ∀ t : Fin grid0.N, ((grid0.coords t) 1).val = t.val % 4)

/-- Point number `n`. -/
abbrev pt (n : ℕ) (h : n < 16) : Fin cfg0.N := ⟨n, lt_of_lt_of_eq h N16.symm⟩

/-- Prototype tile `j`, normalised and repacked K-major: what point `j` (of the first row) computes from its block. -/
def PK (c : Dev nD) (j : ℕ) (hj : j < 4) : Vec F S2048x256 .bf16 := k0_pay5 (iblk m c 2 (pt j (by omega)))
/-- The batch chunk of point `n`'s row, normalised: what the row's first point computes from its block. -/
def ZN (c : Dev nD) (n : ℕ) (hn : n < 16) : Vec F S1024x256 .bf16 := k0_pay6 (iblk m c 0 (pt (n - n % 4) (by omega)))

theorem t16 (t : Fin cfg0.N) : t.val < 16 := lt_of_lt_of_eq t.isLt N16

theorem PK_eq (c : Dev nD) (t : Fin cfg0.N) (hi : t.val / 4 = 0) (h) : PK m c (t.val % 4) h = k0_pay5 (iblk m c 2 t) := by
  unfold PK
  have e : pt (t.val % 4) (by have := t16 t; omega) = t := Fin.ext (by show t.val % 4 = t.val; omega)
  rw [e]
theorem ZN_eq (c : Dev nD) (t : Fin cfg0.N) (hj : t.val % 4 = 0) : ZN m c t.val (t16 t) = k0_pay6 (iblk m c 0 t) := by
  unfold ZN
  have e : pt (t.val - t.val % 4) (by have := t16 t; omega) = t := Fin.ext (by show t.val - t.val % 4 = t.val; omega)
  rw [e]
theorem ZN_step (c : Dev nD) (n : ℕ) (hn : n + 1 < 16) (hj : ¬ (n + 1) % 4 = 0) : ZN m c (n + 1) hn = ZN m c n (by omega) := by
  unfold ZN
  have e : pt (n + 1 - (n + 1) % 4) (by omega) = pt (n - n % 4) (by omega) := Fin.ext (by show n + 1 - (n + 1) % 4 = n - n % 4; omega)
  rw [e]

/-- The masked tile maxima at point `t`, over the named scratch contents. -/
def M43 (c : Dev nD) (t : Fin cfg0.N) : FVec F S256x1024 .bf16 :=
  k0_pay9 (grid0.coords t) (PK m c (t.val % 4) (Nat.mod_lt _ (by decide))) (ZN m c t.val (t16 t)) (iblk m c 1 t)
def M33 (c : Dev nD) (t : Fin cfg0.N) : FVec F S256x1024 .bf16 :=
  k0_pay7 (PK m c (t.val % 4) (Nat.mod_lt _ (by decide))) (ZN m c t.val (t16 t))
def M41 (c : Dev nD) (t : Fin cfg0.N) : IVec S256x1024 1 := k0_pay8 (grid0.coords t) (iblk m c 1 t)

/-- The running same-class maximum after point `n`. -/
def posAt (c : Dev nD) : (n : ℕ) → n < cfg0.N → Vec F S1024 .f32
  | 0, hn => k0_pay1 (M43 m c ⟨0, hn⟩)
  | n + 1, hn => if (n + 1) % 4 = 0 then k0_pay1 (M43 m c ⟨n + 1, hn⟩)
      else k0_pay3 (M43 m c ⟨n + 1, hn⟩) (posAt c n (Nat.lt_of_succ_lt hn))
/-- The running other-class maximum after point `n`. -/
def negAt (c : Dev nD) : (n : ℕ) → n < cfg0.N → Vec F S1024 .f32
  | 0, hn => k0_pay2 (M33 m c ⟨0, hn⟩) (M41 m c ⟨0, hn⟩)
  | n + 1, hn => if (n + 1) % 4 = 0 then k0_pay2 (M33 m c ⟨n + 1, hn⟩) (M41 m c ⟨n + 1, hn⟩)
      else k0_pay4 (M33 m c ⟨n + 1, hn⟩) (M41 m c ⟨n + 1, hn⟩) (negAt c n (Nat.lt_of_succ_lt hn))

theorem posAt_reset (c : Dev nD) (t : Fin cfg0.N) (hj : t.val % 4 = 0) : posAt m c t.val t.isLt = k0_pay1 (M43 m c t) := by
  obtain ⟨n, hn⟩ := t
  cases n with
  | zero => rfl
  | succ n => exact if_pos hj
theorem posAt_acc (c : Dev nD) (t : Fin cfg0.N) (hj : ¬ t.val % 4 = 0) :
    posAt m c t.val t.isLt = k0_pay3 (M43 m c t) (posAt m c (t.val - 1) (Nat.lt_of_le_of_lt (Nat.sub_le _ _) t.isLt)) := by
  obtain ⟨n, hn⟩ := t
  cases n with
  | zero => exact absurd (Nat.zero_mod _) hj
  | succ n => exact if_neg hj
theorem negAt_reset (c : Dev nD) (t : Fin cfg0.N) (hj : t.val % 4 = 0) : negAt m c t.val t.isLt = k0_pay2 (M33 m c t) (M41 m c t) := by
  obtain ⟨n, hn⟩ := t
  cases n with
  | zero => rfl
  | succ n => exact if_pos hj
theorem negAt_acc (c : Dev nD) (t : Fin cfg0.N) (hj : ¬ t.val % 4 = 0) :
    negAt m c t.val t.isLt = k0_pay4 (M33 m c t) (M41 m c t) (negAt m c (t.val - 1) (Nat.lt_of_le_of_lt (Nat.sub_le _ _) t.isLt)) := by
  obtain ⟨n, hn⟩ := t
  cases n with
  | zero => exact absurd (Nat.zero_mod _) hj
  | succ n => exact if_neg hj

/-! ## The scratch invariant -/

/-- Every tile written so far (tiles 0..n; all four once n ≥ 3) holds its named contents. -/
def Inv7 (c : Dev nD) (n : ℕ) (X7 : Vec F S8192x256 .bf16) : Prop :=
  ∀ (i' : grid0.Coords) (h : (i' 1).val < 4), (i' 1).val ≤ n → tile i' X7 = PK m c (i' 1).val h

theorem Inv7_mono (c : Dev nD) (n n' : ℕ) (hn : 3 ≤ n) (X7 : Vec F S8192x256 .bf16) (h : Inv7 m c n X7) : Inv7 m c n' X7 :=
  fun i' hi' _ => h i' hi' (by omega)

/-- The invariant before position `n`: the class's before the first point; afterwards the K-major scratch at some
    contents satisfying `Inv7`, the batch-chunk scratch at its named contents, the generator register at some state. -/
def PhiS (c : Dev nD) : (n : ℕ) → n ≤ cfg0.N → sProp 𝕄
  | 0, _ => Pipeline.ΦA spec0 c
  | n + 1, hn => iprop(iprop((∃ X7, ⌜Inv7 m c n X7⌝ ∗ owns (c : Thread nD τ) scM7 fullShare X7)
      ∗ owns (c : Thread nD τ) scM8 fullShare (ZN m c n (lt_of_lt_of_eq hn N16))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ X7, ⌜Inv7 m c n X7⌝ ∗ owns (c : Thread nD τ) scM7 fullShare X7)
      ∗ owns (c : Thread nD τ) scM8 fullShare (ZN m c n (lt_of_lt_of_eq hn N16))) ∗ (∃ r, prngReg c r)) := rfl
theorem PhiS_pos (c : Dev nD) (n : ℕ) (h : n ≤ cfg0.N) (hz : n ≠ 0) :
    PhiS m c n h = iprop(iprop((∃ X7, ⌜Inv7 m c (n - 1) X7⌝ ∗ owns (c : Thread nD τ) scM7 fullShare X7)
      ∗ owns (c : Thread nD τ) scM8 fullShare (ZN m c (n - 1) (by have := N16; omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => posAt m c t.val t.isLt
    | ⟨4, _⟩ => negAt m c t.val t.isLt
    | ⟨_ + 5, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = posAt m c t.val t.isLt := by dsimp only [dats]
theorem after4 (c : Dev nD) (t : Fin cfg0.N) : (dats m 0 c).after 4 t = negAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem idle3_all : ∀ i : grid0.Coords, cfg0.idle 3 i = false := by decide +kernel
theorem idle4_all : ∀ i : grid0.Coords, cfg0.idle 4 i = false := by decide +kernel

/-- At a point that is not a row's first the running maxima's buffers hold what the point before left. -/
theorem before3 (c : Dev nD) (t : Fin cfg0.N) (hj : ¬ t.val % 4 = 0) (d) :
    (dats m 0 c).before 3 t d = posAt m c (t.val - 1) (Nat.lt_of_le_of_lt (Nat.sub_le _ _) t.isLt) := by
  have ht : t.val ≠ 0 := fun h => hj (by rw [h])
  rw [(dats m 0 c).before_out_kept 3 rfl t ht
    (by rw [Bool.eq_false_iff]; intro h; have := (flush0_3 _).mp h; dsimp only at this; omega) idle3_all (fun _ _ => rfl) d, after3]
theorem before4 (c : Dev nD) (t : Fin cfg0.N) (hj : ¬ t.val % 4 = 0) (d) :
    (dats m 0 c).before 4 t d = negAt m c (t.val - 1) (Nat.lt_of_le_of_lt (Nat.sub_le _ _) t.isLt) := by
  have ht : t.val ≠ 0 := fun h => hj (by rw [h])
  rw [(dats m 0 c).before_out_kept 4 rfl t ht
    (by rw [Bool.eq_false_iff]; intro h; have := (flush0_4 _).mp h; dsimp only at this; omega) idle4_all (fun _ _ => rfl) d, after4]

end Cert.KernelIdeal.Body

end
-- ==== Proof.IdealBody.lean ====
/-
  The body obligation at every grid point, the run, and the frame.

  At point t the invariant hands the body the two scratch buffers (at anything before the first point; afterwards the
  K-major scratch with every tile written so far at its named contents, and the batch chunk's scratch at the row's
  normalised chunk); the three input buffers hold their blocks; at a point that is not a row's first the two output
  buffers hold the running maxima the point before left. The case's run applies, and what it leaves is the next
  invariant and the named running maxima.
-/
import proofs.«162377_g90082644066738_cont_sun_c4_21_26_alg».proof.Proof.IdealState

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem PK_congr (c : Dev nD) (j j' : ℕ) (e : j = j') (h : j < 4) (h' : j' < 4) : PK m c j h = PK m c j' h' := by
  subst e; rfl

theorem ZN_prev (c : Dev nD) (t : Fin cfg0.N) (hj : ¬ t.val % 4 = 0) :
    ZN m c t.val (t16 t) = ZN m c (t.val - 1) (by have := t16 t; omega) := by
  unfold ZN
  have e : pt (t.val - t.val % 4) (by have := t16 t; omega) = pt (t.val - 1 - (t.val - 1) % 4) (by have := t16 t; omega) :=
    Fin.ext (by show t.val - t.val % 4 = t.val - 1 - (t.val - 1) % 4; omega)
  rw [e]

/-- The tile of the point's own column, from the invariant. -/
theorem tile_of_inv (c : Dev nD) (t : Fin cfg0.N) (n : ℕ) (hn : 3 ≤ n) (X7 : Vec F S8192x256 .bf16) (h : Inv7 m c n X7) :
    tile (grid0.coords t) X7 = PK m c (t.val % 4) (Nat.mod_lt _ (by decide)) :=
  (h (grid0.coords t) (by rw [hcoord1]; exact Nat.mod_lt _ (by decide)) (by rw [hcoord1]; have := Nat.mod_lt t.val (by decide : 0 < 4); omega)).trans
    (PK_congr m c _ _ (hcoord1 t) _ _)

/-- Writing point t's tile (t in the first row) extends the invariant to tile t. -/
theorem Inv7_put (c : Dev nD) (t : Fin cfg0.N) (hi : t.val / 4 = 0) (hc1 : cond1 (grid0.coords t)) (X7 : Vec F S8192x256 .bf16)
    (hprev : ∀ (i' : grid0.Coords) (h : (i' 1).val < 4), (i' 1).val < t.val → tile i' X7 = PK m c (i' 1).val h) :
    Inv7 m c t.val (putTile scM7 hsc7 (grid0.coords t) hc1 X7 (k0_pay5 (iblk m c 2 t))) := by
  intro i' h hle
  by_cases e : (i' 1).val = ((grid0.coords t) 1).val
  · rw [tile_congr (grid0.coords t) i' e, tile_putTile_self]
    have e' : (i' 1).val = t.val % 4 := e.trans (hcoord1 t)
    have h4 : t.val % 4 < 4 := Nat.mod_lt _ (by decide)
    exact ((PK_congr m c _ _ e' h h4).trans (PK_eq m c t hi h4)).symm
  · rw [tile_putTile_other _ _ _ _ _ _ i' e]
    have := hcoord1 t
    exact hprev i' h (by omega)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 16 := t16 t
  by_cases hi : t.val / 4 = 0
  · have hc1 : cond1 (grid0.coords t) := (hcond1 t).mpr hi
    by_cases hj : t.val % 4 = 0
    · -- the first point: both scratch buffers at anything
      have hc2 : cond2 (grid0.coords t) := (hcond2 t).mpr hj
      have hc3 : cond3 (grid0.coords t) := (hcond3 t).mpr hj
      have hc4 : ¬cond4 (grid0.coords t) := fun h => (hcond4 t).mp h hj
      have hz : t.val = 0 := by omega
      rw [posAt_reset m c t hj, negAt_reset m c t hj]
      simp only [M43, M33, M41]
      rw [PK_eq m c t hi, ZN_eq m c t hj]
      rw [PhiS_castSucc m c t, PhiS_zero m c _ _ hz, PhiA_eq]
      iintro ⟨⟨⟨⟨%d7, HS7⟩, ⟨%d8, HS8⟩⟩, Hg⟩, Ho, ⟨%d0, H0⟩, ⟨%d1, H1⟩, ⟨%d2, H2⟩, ⟨%d3, H3⟩, ⟨%d4, H4⟩⟩
      iapply (run_A c (grid0.coords t) (ms0 t) (hs0 t) (ms1 t) (hs1 t) (ms2 t) (hs2 t) (ms3 t) (hs3 t) (ms4 t) (hs4 t) scM7 hsc7 scM8 hsc8 hc1 hc2 hc3 hc4 (iblk m c 0 t) (iblk m c 1 t) (iblk m c 2 t) ((dats m 0 c).before 3 t d3) ((dats m 0 c).before 4 t d4) d7 d8 Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, H7, H8⟩
      isplitl [H7 H8 Hg]
      · isplitl [H7 H8]
        · isplitl [H7]
          · iexists _; isplitr; swap; · iexact H7
            ipureintro
            exact Inv7_put m c t hi hc1 d7 (fun i' h hlt => absurd hlt (by omega))
          iexact H8
        iexact Hg
      isplitl [Ho]; · iexact Ho
      isplitl [H0]; · iexact H0
      isplitl [H1]; · iexact H1
      isplitl [H2]; · iexact H2
      isplitl [H3]; · iexact H3
      iexact H4
    · -- the first row, after its first point
      have hc2 : ¬cond2 (grid0.coords t) := fun h => hj ((hcond2 t).mp h)
      have hc3 : ¬cond3 (grid0.coords t) := fun h => hj ((hcond3 t).mp h)
      have hc4 : cond4 (grid0.coords t) := (hcond4 t).mpr hj
      have hz : t.val ≠ 0 := by omega
      rw [posAt_acc m c t hj, negAt_acc m c t hj]
      simp only [M43, M33, M41]
      rw [PK_eq m c t hi, ZN_prev m c t hj]
      rw [PhiS_castSucc m c t, PhiS_pos m c _ _ hz]
      simp only [before3 m c t hj, before4 m c t hj]
      iintro ⟨⟨⟨⟨%X7, %hInv, HS7⟩, HS8⟩, Hg⟩, Ho, ⟨%d0, H0⟩, ⟨%d1, H1⟩, ⟨%d2, H2⟩, ⟨%d3, H3⟩, ⟨%d4, H4⟩⟩
      iapply (run_B c (grid0.coords t) (ms0 t) (hs0 t) (ms1 t) (hs1 t) (ms2 t) (hs2 t) (ms3 t) (hs3 t) (ms4 t) (hs4 t) scM7 hsc7 scM8 hsc8 hc1 hc2 hc3 hc4 (iblk m c 0 t) (iblk m c 1 t) (iblk m c 2 t) (posAt m c (t.val - 1) (Nat.lt_of_le_of_lt (Nat.sub_le _ _) t.isLt)) (negAt m c (t.val - 1) (Nat.lt_of_le_of_lt (Nat.sub_le _ _) t.isLt)) X7 (ZN m c (t.val - 1) (by omega)) Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, H7, H8⟩
      isplitl [H7 H8 Hg]
      · isplitl [H7 H8]
        · isplitl [H7]
          · iexists _; isplitr; swap; · iexact H7
            ipureintro
            exact Inv7_put m c t hi hc1 X7 (fun i' h hlt => hInv i' h (by omega))
          iexact H8
        iexact Hg
      isplitl [Ho]; · iexact Ho
      isplitl [H0]; · iexact H0
      isplitl [H1]; · iexact H1
      isplitl [H2]; · iexact H2
      isplitl [H3]; · iexact H3
      iexact H4
  · have hc1 : ¬cond1 (grid0.coords t) := fun h => hi ((hcond1 t).mp h)
    have hz : t.val ≠ 0 := by omega
    by_cases hj : t.val % 4 = 0
    · -- a later row's first point
      have hc2 : cond2 (grid0.coords t) := (hcond2 t).mpr hj
      have hc3 : cond3 (grid0.coords t) := (hcond3 t).mpr hj
      have hc4 : ¬cond4 (grid0.coords t) := fun h => (hcond4 t).mp h hj
      rw [posAt_reset m c t hj, negAt_reset m c t hj]
      simp only [M43, M33, M41]
      rw [ZN_eq m c t hj]
      rw [PhiS_castSucc m c t, PhiS_pos m c _ _ hz]
      iintro ⟨⟨⟨⟨%X7, %hInv, HS7⟩, HS8⟩, Hg⟩, Ho, ⟨%d0, H0⟩, ⟨%d1, H1⟩, ⟨%d2, H2⟩, ⟨%d3, H3⟩, ⟨%d4, H4⟩⟩
      have hT := tile_of_inv m c t (t.val - 1) (by omega) X7 hInv
      iapply (run_C c (grid0.coords t) (ms0 t) (hs0 t) (ms1 t) (hs1 t) (ms2 t) (hs2 t) (ms3 t) (hs3 t) (ms4 t) (hs4 t) scM7 hsc7 scM8 hsc8 hc1 hc2 hc3 hc4 (iblk m c 0 t) (iblk m c 1 t) (iblk m c 2 t) ((dats m 0 c).before 3 t d3) ((dats m 0 c).before 4 t d4) X7 (ZN m c (t.val - 1) (by omega)) Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, H7, H8⟩
      rw [hT]
      isplitl [H7 H8 Hg]
      · isplitl [H7 H8]
        · isplitl [H7]
          · iexists _; isplitr; swap; · iexact H7
            ipureintro
            exact Inv7_mono m c (t.val - 1) t.val (by omega) X7 hInv
          iexact H8
        iexact Hg
      isplitl [Ho]; · iexact Ho
      isplitl [H0]; · iexact H0
      isplitl [H1]; · iexact H1
      isplitl [H2]; · iexact H2
      isplitl [H3]; · iexact H3
      iexact H4
    · -- a later row, after its first point
      have hc2 : ¬cond2 (grid0.coords t) := fun h => hj ((hcond2 t).mp h)
      have hc3 : ¬cond3 (grid0.coords t) := fun h => hj ((hcond3 t).mp h)
      have hc4 : cond4 (grid0.coords t) := (hcond4 t).mpr hj
      rw [posAt_acc m c t hj, negAt_acc m c t hj]
      simp only [M43, M33, M41]
      rw [ZN_prev m c t hj]
      rw [PhiS_castSucc m c t, PhiS_pos m c _ _ hz]
      simp only [before3 m c t hj, before4 m c t hj]
      iintro ⟨⟨⟨⟨%X7, %hInv, HS7⟩, HS8⟩, Hg⟩, Ho, ⟨%d0, H0⟩, ⟨%d1, H1⟩, ⟨%d2, H2⟩, ⟨%d3, H3⟩, ⟨%d4, H4⟩⟩
      have hT := tile_of_inv m c t (t.val - 1) (by omega) X7 hInv
      iapply (run_D c (grid0.coords t) (ms0 t) (hs0 t) (ms1 t) (hs1 t) (ms2 t) (hs2 t) (ms3 t) (hs3 t) (ms4 t) (hs4 t) scM7 hsc7 scM8 hsc8 hc1 hc2 hc3 hc4 (iblk m c 0 t) (iblk m c 1 t) (iblk m c 2 t) (posAt m c (t.val - 1) (Nat.lt_of_le_of_lt (Nat.sub_le _ _) t.isLt)) (negAt m c (t.val - 1) (Nat.lt_of_le_of_lt (Nat.sub_le _ _) t.isLt)) X7 (ZN m c (t.val - 1) (by omega)) Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, H7, H8⟩
      rw [hT]
      isplitl [H7 H8 Hg]
      · isplitl [H7 H8]
        · isplitl [H7]
          · iexists _; isplitr; swap; · iexact H7
            ipureintro
            exact Inv7_mono m c (t.val - 1) t.val (by omega) X7 hInv
          iexact H8
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N16; omega), PhiA_eq]
  iintro ⟨⟨⟨%X7, %hInv, HS7⟩, HS8⟩, Hg⟩
  isplitl [HS7 HS8]
  · isplitl [HS7]
    · iexists _; iexact HS7
    iexists _; iexact HS8
  iexact Hg

/-! ## The run and the frame -/

/-- Every weakly fair execution of @main terminates without a fault, every array of the pipeline ends at what the
    library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs, and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  The specification: the two results as functions of the argument arrays, on the extended reals.

  For a batch row b and a prototype row r = 8 c + k (prototype k of class c):
    sim b r  =  Σ_d  ẑ[b, d] · p̂[r, d],   x̂ = x / max(ε, ‖x‖)  (the row normalised, ε the 32-bit word 0x2B8CBCCC),
    pos b    =  max over r with c = y[b] of sim b r      (−∞ when no class matches),
    neg b    =  max over r with c ≠ y[b] of sim b r.
  The kernel normalises by x · (max(Σ x², ε²))^(−1/2) instead; on real rows the two agree (`nK_eq_nR`).
-/
import Mathlib
import Idealize.ShloMosaic.Lib.ValueIdx
import Idealize.ShloMosaic.PureOps.Ideal.Laws

noncomputable section

namespace Cert.Spec

open Idealize.ShloMosaic Idealize.ShloMosaic.ValueIdx

abbrev Sz : Shape := ⟨2, ![4096, 256]⟩
abbrev Sy : Shape := ⟨1, ![4096]⟩
abbrev Sp : Shape := ⟨3, ![1024, 8, 256]⟩
abbrev So : Shape := ⟨1, ![4096]⟩

/-- The reference's clamp ε (its printed 32-bit word) and the kernel's clamp, named ε² exactly. -/
def c12 : EReal := Ideal.ofBits .f32 0x2B8CBCCC#32
def e24 : EReal := ((5316911940649 / 5316911983139663491615228241121378304 : ℝ) : EReal)

/-- Row b of z, and prototype row r = 8 c + k of the bank. -/
def zrow (z : Sz.Idx → EReal) (b : Fin 4096) (d : Fin 256) : EReal := z (ix2 b d)
def prow (p : Sp.Idx → EReal) (r : Fin 8192) (d : Fin 256) : EReal :=
  p (ix3 (n0 := 1024) (n1 := 8) (n2 := 256) ⟨r.val / 8, by have := r.isLt; omega⟩ ⟨r.val % 8, Nat.mod_lt _ (by decide)⟩ d)

/-- The sum of a row's squares. -/
def ssq (x : Fin 256 → EReal) : EReal := ∑ k : Fin 256, x k * x k
/-- The reference's normalisation of a row: x / max(ε, √(Σ x²)). -/
def nR (x : Fin 256 → EReal) (d : Fin 256) : EReal := Ideal.div (x d) (max c12 (Ideal.sqrt (ssq x)))
/-- The kernel's: x · rsqrt(max(Σ x², ε²)). -/
def nK (x : Fin 256 → EReal) (d : Fin 256) : EReal := x d * Ideal.rsqrt (max (ssq x) e24)

/-- Cosine similarity of batch row b and prototype row r, the reference's way and the kernel's. -/
def simR (z : Sz.Idx → EReal) (p : Sp.Idx → EReal) (b : Fin 4096) (r : Fin 8192) : EReal :=
  ∑ d : Fin 256, nR (zrow z b) d * nR (prow p r) d
def simK (z : Sz.Idx → EReal) (p : Sp.Idx → EReal) (b : Fin 4096) (r : Fin 8192) : EReal :=
  ∑ d : Fin 256, nK (prow p r) d * nK (zrow z b) d

/-- The class of prototype row r, as a 32-bit word. -/
def label (r : Fin 8192) : BitVec 32 := BitVec.ofNat 32 (r.val / 8)

/-- The largest similarity to a prototype of the row's own class, and to one of another class. -/
def posR (z : Sz.Idx → EReal) (y : Sy.Idx → BitVec 32) (p : Sp.Idx → EReal) (b : Fin 4096) : EReal :=
  (Finset.univ : Finset (Fin 8192)).fold max ⊥ fun r => if label r = y (ix1 b) then simR z p b r else ⊥
def negR (z : Sz.Idx → EReal) (y : Sy.Idx → BitVec 32) (p : Sp.Idx → EReal) (b : Fin 4096) : EReal :=
  (Finset.univ : Finset (Fin 8192)).fold max ⊥ fun r => if label r = y (ix1 b) then ⊥ else simR z p b r

end Cert.Spec

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.LibMaxAxis0.lean ====
/-
  The maximum over axis 0 of a matrix, read at a column, at exact arithmetic.

  The maximum over axis 0 of an [A, B] matrix at column c is the fold of max over the column's entries (k, c), from the
  initial word's value — the companion, for columns, of a row's maximum over axis 1.
-/
import Idealize.ShloMosaic.Lib.ValueIdx
import Idealize.ShloMosaic.Lib.Pipeline.Value
import Idealize.ShloMosaic.PureOps.Ideal.Laws

noncomputable section

namespace LibMaxAxis0

open Idealize.ShloMosaic Idealize.ShloMosaic.ValueIdx

/-- The maximum over axis 0 of an [A, B] matrix, at column c: the fold of max over the column, from the initial word's value. -/
theorem max_axis0_apply {A B : ℕ} {φ : FTy} (src : FVec Ideal ⟨2, ![A, B]⟩ φ) (acc : BitVec φ.bits)
    (h : Shape.Reduces ⟨2, ![A, B]⟩ [0] ⟨1, ![B]⟩) (hφ : FKind.Formats φ) (hacc : acc = FKind.maximumf.neutral φ hφ) (c : Fin B) :
    multiReduction .maximumf [0] ⟨1, ![B]⟩ src acc h hφ hacc (ix1 c)
      = (Finset.univ : Finset (Fin A)).fold max (Ideal.ofBits φ acc) (fun k => src (ix2 k c)) := by
  refine (Ideal.multiReduction_maximumf_single src acc h hφ hacc (ix1 c)).trans ?_
  refine congrArg (fun g => Finset.fold max (Ideal.ofBits φ acc) g (Finset.univ : Finset (Fin A))) (funext fun k => congrArg src ?_)
  funext d
  match d with
  | ⟨0, _⟩ => exact Fin.ext rfl
  | ⟨1, _⟩ => exact Fin.ext rfl

end LibMaxAxis0

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«162377_g90082644066738_cont_sun_c4_21_26_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.IdealPay.lean ====
/-
  The body's payloads read at an index, on the extended reals.

  * The normalised rows: entry (r, d) of a normalised block is x[r, d] · rsqrt(max(Σ_e x[r, e]², ε²)).
  * The K-major repack: row k·256 + c of the repacked tile is row 8 c + k of the normalised tile
    (prototype k of class c).
  * The similarity tile: entry (q, b) of the product is Σ_d pk[q, d] · zn[b, d]; the class maxima take, for class c,
    the maximum over the eight rows k·256 + c.
  * The masks compare the class index 256 j + c with the label of batch row b; the masked maxima over the 256
    classes of the tile are folds of max from −∞.
-/
import proofs.«162377_g90082644066738_cont_sun_c4_21_26_alg».proof.Proof.Gen.KernelIdeal.Skeleton
import proofs.«162377_g90082644066738_cont_sun_c4_21_26_alg».proof.Proof.Spec
import proofs.«162377_g90082644066738_cont_sun_c4_21_26_alg».proof.Proof.LibMatmulNT
import proofs.«162377_g90082644066738_cont_sun_c4_21_26_alg».proof.Proof.LibMaxAxis0
import proofs.«162377_g90082644066738_cont_sun_c4_21_26_alg».proof.Proof.LibKeepdims
import proofs.«162377_g90082644066738_cont_sun_c4_21_26_alg».proof.Proof.LibColumnOps
import proofs.«162377_g90082644066738_cont_sun_c4_21_26_alg».proof.Proof.LibRowOps
import Idealize.ShloMosaic.Lib.Pipeline.Value
import Idealize.ShloMosaic.Lib.ValueIdx
import Idealize.ShloMosaic.Lib.Affine
import Idealize.ShloMosaic.PureOps.Ideal.Laws
import Idealize.ShloMosaic.PureOps.IdealRules

set_option maxRecDepth 16384

noncomputable section

namespace Cert.KernelIdeal.Pay

open Cert.KernelIdeal Cert.KernelIdeal.Gen Cert.Spec
open Idealize.ShloMosaic Idealize.ShloMosaic.ValueIdx Idealize.ShloMosaic.TcCoe

/-- The kernel's clamp is, by the certificate's table, exactly ε². -/
theorem eps_sq_val : Named.named (F := Ideal) κ "eps_sq" (φ := .f32) 0x179ABE15#32 = e24 :=
  IdealRules.named_const.ideal_named_scalar _ _ _ _ rfl

/-- The −∞ word of the 16-bit format. -/
theorem ninf_bf16 : Ideal.ofBits .bf16 0xFF80#16 = ⊥ := by
  simp [Ideal.ofBits, Ideal.ieee]

/-- A fold of max from −∞ is the supremum. -/
theorem fold_sup (a : EReal) (ha : a = ⊥) {n : ℕ} (f : Fin n → EReal) :
    (Finset.univ : Finset (Fin n)).fold max a f = (Finset.univ : Finset (Fin n)).sup f := by
  subst ha; rfl

theorem rsqrt_apply {s : Shape} {φ : FTy} (a : FVec Ideal s φ) (i : s.Idx) : rsqrt a i = Ideal.rsqrt (a i) := rfl

/-- A block of rows normalised, at entry (r, d). -/
theorem nrm_apply {R : ℕ} (x : FVec Ideal ⟨2, ![R, 256]⟩ .f32)
    (hred : Shape.Reduces ⟨2, ![R, 256]⟩ [1] ⟨1, ![R]⟩) (hcast : (⟨1, ![R]⟩ : Shape).ShapeCasts ⟨2, ![R, 1]⟩)
    (hb : (⟨2, ![R, 1]⟩ : Shape).Broadcasts ⟨2, ![R, 256]⟩) (hφ : FKind.Formats .f32)
    (hacc : (0x00000000#32 : BitVec 32) = FKind.add.neutral .f32 hφ) (r : Fin R) (d : Fin 256) :
    mulf x (broadcastTo ⟨2, ![R, 256]⟩ (rsqrt (maximumf (shapeCast ⟨2, ![R, 1]⟩ (multiReduction .add [1] ⟨1, ![R]⟩ (mulf x x) 0x00000000#32 hred hφ hacc) hcast)
      (broadcast ⟨2, ![R, 1]⟩ (Named.named (F := Ideal) κ "eps_sq" (φ := .f32) 0x179ABE15#32)))) hb) (ix2 r d)
      = nK (fun k => x (ix2 r k)) d := by
  rw [mulf_apply, LibColumnOps.broadcastTo_col_apply, rsqrt_apply, maximumf_apply, LibKeepdims.shapeCast_col_apply,
    LibKeepdims.sum_axis1_apply, broadcast_apply, eps_sq_val]
  rfl

/-- The batch chunk normalised, at (b, d). -/
theorem pay6_apply (x : Vec Ideal S1024x256 .f32) (b : Fin 1024) (d : Fin 256) :
    k0_pay6 (F := Ideal) x (ix2 b d) = nK (fun k => x (ix2 b k)) d := by
  unfold k0_pay6
  dsimp only
  rw [shapeCast_self]
  exact nrm_apply (R := 1024) x _ _ _ _ _ b d

/-- The prototype tile normalised and repacked K-major, at (k·256 + c, d): row 8 c + k of the tile, normalised. -/
theorem pay5_apply (x : Vec Ideal S2048x256 .f32) (k : Fin 8) (cl : Fin 256) (d : Fin 256) :
    k0_pay5 (F := Ideal) x (ix2 ⟨k.val * 256 + cl.val, by have := k.isLt; have := cl.isLt; omega⟩ d)
      = nK (fun e => x (ix2 ⟨cl.val * 8 + k.val, by have := k.isLt; have := cl.isLt; omega⟩ e)) d := by
  unfold k0_pay5
  dsimp only
  rw [shapeCast_self]
  rw [shapeCast_apply _ _ _ (ix3 (n0 := 8) (n1 := 256) (n2 := 256) k cl d) (by
    rw [Shape.rowMajor_val_three, Shape.rowMajor_val_two]; rfl)]
  rw [transpose_apply _ _ _ _ (ix3 (n0 := 256) (n1 := 8) (n2 := 256) cl k d) (by
    intro b; match b with | ⟨0, _⟩ => rfl | ⟨1, _⟩ => rfl | ⟨2, _⟩ => rfl)]
  rw [shapeCast_apply _ _ _ (ix2 (n0 := 2048) (n1 := 256) ⟨cl.val * 8 + k.val, by have := k.isLt; have := cl.isLt; omega⟩ d) (by
    rw [Shape.rowMajor_val_three, Shape.rowMajor_val_two]; rfl)]
  rw [shapeCast_self]
  exact nrm_apply (R := 2048) x _ _ _ _ _ _ d

/-! ## The similarity tile and the class maxima -/

/-- Entry (q, b) of the tile's product. -/
def simT (v8 : Vec Ideal S2048x256 .bf16) (v9 : Vec Ideal S1024x256 .bf16) (q : Fin 2048) (b : Fin 1024) : EReal :=
  ∑ d : Fin 256, v8 (ix2 q d) * v9 (ix2 b d)

theorem mm_l0 (j : S2048x1024.Idx) (k : dot_S2048x256_S1024x256_S2048x1024_1_1_0_0_n_n.contr.Idx) : (dot_S2048x256_S1024x256_S2048x1024_1_1_0_0_n_n.lhsIdx j k 0).val = (j 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem mm_l1 (j : S2048x1024.Idx) (k : dot_S2048x256_S1024x256_S2048x1024_1_1_0_0_n_n.contr.Idx) : (dot_S2048x256_S1024x256_S2048x1024_1_1_0_0_n_n.lhsIdx j k 1).val = (k ⟨0, by decide⟩).val :=
  dot_S2048x256_S1024x256_S2048x1024_1_1_0_0_n_n.lhsIdx_val_of_single rfl j k
theorem mm_r0 (j : S2048x1024.Idx) (k : dot_S2048x256_S1024x256_S2048x1024_1_1_0_0_n_n.contr.Idx) : (dot_S2048x256_S1024x256_S2048x1024_1_1_0_0_n_n.rhsIdx j k 0).val = (j 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem mm_r1 (j : S2048x1024.Idx) (k : dot_S2048x256_S1024x256_S2048x1024_1_1_0_0_n_n.contr.Idx) : (dot_S2048x256_S1024x256_S2048x1024_1_1_0_0_n_n.rhsIdx j k 1).val = (k ⟨0, by decide⟩).val :=
  dot_S2048x256_S1024x256_S2048x1024_1_1_0_0_n_n.rhsIdx_val_of_single rfl j k

theorem mm_apply (v8 : Vec Ideal S2048x256 .bf16) (v9 : Vec Ideal S1024x256 .bf16) (q : Fin 2048) (b : Fin 1024) :
    matmul (F := Ideal) (φ₁ := .bf16) (φ₂ := .bf16) dot_S2048x256_S1024x256_S2048x1024_1_1_0_0_n_n none v8 v9 (constant (F := Ideal) S2048x1024 .f32 0x00000000#32) (ix2 q b) = simT v8 v9 q b :=
  LibMatmulNT.matmul_nt_zero_apply (M := 2048) (K := 256) (N := 1024) dot_S2048x256_S1024x256_S2048x1024_1_1_0_0_n_n rfl rfl mm_l0 mm_l1 mm_r0 mm_r1 none v8 v9 (ix2 q b)

/-- A band of 256 rows of the product, at (c, b). -/
theorem slice_apply (o : ℕ) (v : S2048x1024.Idx → EReal) (h : S2048x1024.Slices ![o, 0] S256x1024) (cl : Fin 256) (b : Fin 1024)
    (ho : o + cl.val < 2048) :
    extractStridedSlice S256x1024 ![o, 0] v h (ix2 cl b) = v (ix2 ⟨o + cl.val, ho⟩ b) :=
  extractStridedSlice_apply _ v h _ _ (fun a => by
    match a with
    | ⟨0, _⟩ => rfl
    | ⟨1, _⟩ => show b.val = 0 + b.val; omega)

/-- The class maxima at (c, b): the largest of the eight products of rows k·256 + c. -/
theorem pay7_apply (v8 : Vec Ideal S2048x256 .bf16) (v9 : Vec Ideal S1024x256 .bf16) (cl : Fin 256) (b : Fin 1024) :
    k0_pay7 (F := Ideal) v8 v9 (ix2 cl b)
      = (Finset.univ : Finset (Fin 8)).sup fun k => simT v8 v9 ⟨k.val * 256 + cl.val, by have := k.isLt; have := cl.isLt; omega⟩ b := by
  unfold k0_pay7
  simp only [maximumf_apply, truncf_apply]
  rw [slice_apply 0 _ _ cl b (by have := cl.isLt; omega), slice_apply 256 _ _ cl b (by have := cl.isLt; omega),
    slice_apply 512 _ _ cl b (by have := cl.isLt; omega), slice_apply 768 _ _ cl b (by have := cl.isLt; omega),
    slice_apply 1024 _ _ cl b (by have := cl.isLt; omega), slice_apply 1280 _ _ cl b (by have := cl.isLt; omega),
    slice_apply 1536 _ _ cl b (by have := cl.isLt; omega), slice_apply 1792 _ _ cl b (by have := cl.isLt; omega)]
  simp only [mm_apply]
  apply le_antisymm
  · refine max_le (max_le (max_le (max_le (max_le (max_le (max_le ?_ ?_) ?_) ?_) ?_) ?_) ?_) ?_
    · exact Finset.le_sup (f := fun k : Fin 8 => simT v8 v9 ⟨k.val * 256 + cl.val, by have := k.isLt; have := cl.isLt; omega⟩ b) (Finset.mem_univ (0 : Fin 8)) |>.trans' (le_of_eq (by congr 1))
    · exact Finset.le_sup (f := fun k : Fin 8 => simT v8 v9 ⟨k.val * 256 + cl.val, by have := k.isLt; have := cl.isLt; omega⟩ b) (Finset.mem_univ (1 : Fin 8)) |>.trans' (le_of_eq (by congr 1))
    · exact Finset.le_sup (f := fun k : Fin 8 => simT v8 v9 ⟨k.val * 256 + cl.val, by have := k.isLt; have := cl.isLt; omega⟩ b) (Finset.mem_univ (2 : Fin 8)) |>.trans' (le_of_eq (by congr 1))
    · exact Finset.le_sup (f := fun k : Fin 8 => simT v8 v9 ⟨k.val * 256 + cl.val, by have := k.isLt; have := cl.isLt; omega⟩ b) (Finset.mem_univ (3 : Fin 8)) |>.trans' (le_of_eq (by congr 1))
    · exact Finset.le_sup (f := fun k : Fin 8 => simT v8 v9 ⟨k.val * 256 + cl.val, by have := k.isLt; have := cl.isLt; omega⟩ b) (Finset.mem_univ (4 : Fin 8)) |>.trans' (le_of_eq (by congr 1))
    · exact Finset.le_sup (f := fun k : Fin 8 => simT v8 v9 ⟨k.val * 256 + cl.val, by have := k.isLt; have := cl.isLt; omega⟩ b) (Finset.mem_univ (5 : Fin 8)) |>.trans' (le_of_eq (by congr 1))
    · exact Finset.le_sup (f := fun k : Fin 8 => simT v8 v9 ⟨k.val * 256 + cl.val, by have := k.isLt; have := cl.isLt; omega⟩ b) (Finset.mem_univ (6 : Fin 8)) |>.trans' (le_of_eq (by congr 1))
    · exact Finset.le_sup (f := fun k : Fin 8 => simT v8 v9 ⟨k.val * 256 + cl.val, by have := k.isLt; have := cl.isLt; omega⟩ b) (Finset.mem_univ (7 : Fin 8)) |>.trans' (le_of_eq (by congr 1))
  · refine Finset.sup_le fun k _ => ?_
    fin_cases k
    · exact (le_of_eq (by congr 1)).trans (le_max_of_le_left (le_max_of_le_left (le_max_of_le_left (le_max_of_le_left (le_max_of_le_left (le_max_of_le_left (le_max_left _ _)))))))
    · exact (le_of_eq (by congr 1)).trans (le_max_of_le_left (le_max_of_le_left (le_max_of_le_left (le_max_of_le_left (le_max_of_le_left (le_max_of_le_left (le_max_right _ _)))))))
    · exact (le_of_eq (by congr 1)).trans (le_max_of_le_left (le_max_of_le_left (le_max_of_le_left (le_max_of_le_left (le_max_of_le_left (le_max_right _ _))))))
    · exact (le_of_eq (by congr 1)).trans (le_max_of_le_left (le_max_of_le_left (le_max_of_le_left (le_max_of_le_left (le_max_right _ _)))))
    · exact (le_of_eq (by congr 1)).trans (le_max_of_le_left (le_max_of_le_left (le_max_of_le_left (le_max_right _ _))))
    · exact (le_of_eq (by congr 1)).trans (le_max_of_le_left (le_max_of_le_left (le_max_right _ _)))
    · exact (le_of_eq (by congr 1)).trans (le_max_of_le_left (le_max_right _ _))
    · exact (le_of_eq (by congr 1)).trans (le_max_right _ _)

/-! ## The masks -/

theorem select_cmpi_eq {α : Type} (x y : BitVec 32) (a b : α) :
    Scalar.select (IntOp.cmpi .eq x y) a b = if x = y then a else b := by
  by_cases h : x = y
  · rw [if_pos h, IntOp.cmpi_eq.mpr h, select_one]
  · rw [if_neg h, eq_zero_of_ne_one (fun e => h (IntOp.cmpi_eq.mp e)), select_zero]

/-- The class index the body computes at row c of tile j is 256 j + c. -/
theorem cls_word : ∀ (j : Fin 4) (cl : Fin 256),
    IntOp.addi (Scalar.muli (BitVec.ofNat 32 j.val) 256#32) (BitVec.ofNat 32 (0 * 256 + cl.val)) = BitVec.ofNat 32 (256 * j.val + cl.val) := by
  decide +kernel

/-- The mask at (c, b): the class 256 j + c against the label of batch row b. -/
theorem pay8_apply (i : grid0.Coords) (y : Vec Ideal S1024 .i32) (cl : Fin 256) (b : Fin 1024) (hj : (i 1).val < 4) :
    k0_pay8 (F := Ideal) i y (ix2 cl b) = IntOp.cmpi .eq (BitVec.ofNat 32 (256 * (i 1).val + cl.val)) (y (ix1 b)) := by
  unfold k0_pay8
  dsimp only
  show IntOp.cmpi .eq (IntOp.addi (Scalar.muli (BitVec.ofNat 32 (i 1).val) 256#32) (iota .tc S256x1024 32 [0] iota_S256x1024_d0_w32 (ix2 cl b)))
    (broadcastTo S256x1024 (shapeCast S1x1024 y shapeCasts_S1024_S1x1024) broadcasts_S1x1024_S256x1024 (ix2 cl b)) = _
  rw [LibRowOps.broadcastTo_row_apply, LibRowOps.shapeCast_row_apply]
  have e := cls_word ⟨(i 1).val, hj⟩ cl
  exact congrArg (fun w => IntOp.cmpi .eq w (y (ix1 b))) e

/-- Both masked tiles at (c, b). -/
theorem pay9_apply (i : grid0.Coords) (v8 : Vec Ideal S2048x256 .bf16) (v9 : Vec Ideal S1024x256 .bf16) (y : Vec Ideal S1024 .i32)
    (cl : Fin 256) (b : Fin 1024) (hj : (i 1).val < 4) :
    k0_pay9 (F := Ideal) i v8 v9 y (ix2 cl b)
      = if BitVec.ofNat 32 (256 * (i 1).val + cl.val) = y (ix1 b) then k0_pay7 (F := Ideal) v8 v9 (ix2 cl b) else ⊥ := by
  unfold k0_pay9
  dsimp only
  rw [select_apply, pay8_apply i y cl b hj, select_cmpi_eq]
  rfl

/-- The tile's same-class maximum for batch row b: over the 256 classes of the tile. -/
theorem pay1_apply (v43 : FVec Ideal S256x1024 .bf16) (b : Fin 1024) :
    k0_pay1 (F := Ideal) v43 (ix1 b) = (Finset.univ : Finset (Fin 256)).sup fun cl => v43 (ix2 cl b) := by
  unfold k0_pay1
  rw [extf_apply]
  refine (LibMaxAxis0.max_axis0_apply (A := 256) (B := 1024) (φ := .bf16) v43 0xFF80#16 reduces_S256x1024_S1024 (.inr rfl) rfl b).trans ?_
  exact fold_sup (Ideal.ofBits .bf16 0xFF80#16) ninf_bf16 (fun k : Fin 256 => v43 (ix2 k b))

/-- The tile's other-class maximum for batch row b. -/
theorem pay2_apply (v33 : FVec Ideal S256x1024 .bf16) (v41 : IVec S256x1024 1) (b : Fin 1024) :
    k0_pay2 (F := Ideal) v33 v41 (ix1 b)
      = (Finset.univ : Finset (Fin 256)).sup fun cl => Scalar.select (v41 (ix2 cl b)) (⊥ : EReal) (v33 (ix2 cl b)) := by
  unfold k0_pay2
  rw [extf_apply]
  refine (LibMaxAxis0.max_axis0_apply (A := 256) (B := 1024) (φ := .bf16) _ 0xFF80#16 reduces_S256x1024_S1024 (.inr rfl) rfl b).trans ?_
  refine (fold_sup (Ideal.ofBits .bf16 0xFF80#16) ninf_bf16 _).trans ?_
  refine congrArg (fun g => (Finset.univ : Finset (Fin 256)).sup g) (funext fun cl => ?_)
  show Scalar.select (v41 (ix2 cl b)) (Ideal.ofBits .bf16 0xFF80#16) (v33 (ix2 cl b)) = _
  rw [ninf_bf16]

/-- Folding a tile's maximum into the running one. -/
theorem pay3_apply (v43 : FVec Ideal S256x1024 .bf16) (prev : Vec Ideal S1024 .f32) (b : Fin 1024) :
    k0_pay3 (F := Ideal) v43 prev (ix1 b) = max (prev (ix1 b)) (k0_pay1 (F := Ideal) v43 (ix1 b)) := by
  unfold k0_pay3
  rw [shapeCast_self]
  rfl
theorem pay4_apply (v33 : FVec Ideal S256x1024 .bf16) (v41 : IVec S256x1024 1) (prev : Vec Ideal S1024 .f32) (b : Fin 1024) :
    k0_pay4 (F := Ideal) v33 v41 prev (ix1 b) = max (prev (ix1 b)) (k0_pay2 (F := Ideal) v33 v41 (ix1 b)) := by
  unfold k0_pay4
  rw [shapeCast_self]
  rfl

end Cert.KernelIdeal.Pay

end
-- ==== Proof.LibFoldMaxBlocks.lean ====
/-
  A maximum over R·P positions, taken in R blocks of P: the maximum of the blocks' maxima.  Stated for a fold of
  `max` from the least element, which is how a column maximum "from −∞" reads on the extended reals.
-/
import Mathlib

namespace LibFoldMaxBlocks

/-- A fold of `max` from the least element is the supremum. -/
theorem fold_max_bot {ι α : Type} [LinearOrder α] [OrderBot α] (s : Finset ι) (f : ι → α) : s.fold max ⊥ f = s.sup f := rfl

/-- The supremum over `Fin (R * P)` in `R` blocks of `P`: position `P·r + p` is block `r`, place `p`. -/
theorem sup_blocks {α : Type} [SemilatticeSup α] [OrderBot α] (R P : ℕ) (f : Fin (R * P) → α) :
    Finset.univ.sup f = Finset.univ.sup fun r : Fin R => Finset.univ.sup fun p : Fin P => f (finProdFinEquiv (r, p)) := by
  have h1 := Finset.sup_product_left (Finset.univ : Finset (Fin R)) (Finset.univ : Finset (Fin P))
    (fun rp : Fin R × Fin P => f (finProdFinEquiv rp))
  rw [Finset.univ_product_univ] at h1
  have h2 := Finset.sup_map (Finset.univ : Finset (Fin R × Fin P)) (finProdFinEquiv (m := R) (n := P)).toEmbedding f
  rw [Finset.map_univ_equiv] at h2
  exact h2.trans h1

/-- The same for folds of `max` from the least element. -/
theorem fold_max_blocks {α : Type} [LinearOrder α] [OrderBot α] (R P : ℕ) (f : Fin (R * P) → α) :
    (Finset.univ : Finset (Fin (R * P))).fold max ⊥ f
      = (Finset.univ : Finset (Fin R)).fold max ⊥ fun r => (Finset.univ : Finset (Fin P)).fold max ⊥ fun p => f (finProdFinEquiv (r, p)) := by
  simp only [fold_max_bot]
  exact sup_blocks R P f

end LibFoldMaxBlocks
-- ==== Proof.SpecLaws.lean ====
/-
  The laws that join the two programs.

  * On a row of real numbers the kernel's normalisation x · rsqrt(max(Σx², ε²)) is the reference's x / max(ε, √Σx²):
    both are x / √(max(Σx², ε²)), because √ is monotone and √(ε²) = ε > 0.  (Finiteness is used here: on the
    extended reals a row holding ±∞ separates them.)
  * A maximum over the 8192 prototype rows r = 2048 j + 8 c + k is the maximum over tiles j of the maximum over classes
    c of the maximum over prototypes k; the class mask does not depend on k, so it may be applied after the maximum
    over k; and the running maximum over the four tiles, folded left to right, is their maximum.
-/
import proofs.«162377_g90082644066738_cont_sun_c4_21_26_alg».proof.Proof.Spec
import proofs.«162377_g90082644066738_cont_sun_c4_21_26_alg».proof.Proof.LibFoldMaxBlocks

noncomputable section

namespace Cert.Spec

open Idealize.ShloMosaic Idealize.ShloMosaic.ValueIdx

/-! ## The clamps -/

theorem c12_val : c12 = ((2305843 / 2305843009213693952 : ℝ) : EReal) := by
  unfold c12
  simp [Ideal.ofBits, Ideal.ieee, -EReal.coe_mul]; norm_num

theorem coe_sum256 (v : Fin 256 → ℝ) : ((∑ k : Fin 256, v k : ℝ) : EReal) = ∑ k : Fin 256, (v k : EReal) := by
  induction (Finset.univ : Finset (Fin 256)) using Finset.induction_on with
  | empty => simp
  | insert a s ha ih => rw [Finset.sum_insert ha, Finset.sum_insert ha, EReal.coe_add, ih]

/-- On a real row the two normalisations agree. -/
theorem nK_eq_nR (x : Fin 256 → EReal) (hx : ∀ k, ∃ v : ℝ, x k = (v : EReal)) (d : Fin 256) : nK x d = nR x d := by
  choose v hv using hx
  have hs : ssq x = ((∑ k : Fin 256, v k * v k : ℝ) : EReal) := by
    unfold ssq
    rw [coe_sum256]
    exact Finset.sum_congr rfl fun k _ => by rw [hv k, EReal.coe_mul]
  have hS0 : (0 : ℝ) ≤ ∑ k : Fin 256, v k * v k := Finset.sum_nonneg fun k _ => mul_self_nonneg _
  generalize (∑ k : Fin 256, v k * v k : ℝ) = S at hs hS0
  have hC : (0 : ℝ) < 2305843 / 2305843009213693952 := by norm_num
  have hE : (5316911940649 / 5316911983139663491615228241121378304 : ℝ) = (2305843 / 2305843009213693952 : ℝ) ^ 2 := by norm_num
  have hmono : Monotone Real.sqrt := fun a b h => Real.sqrt_le_sqrt h
  have hsq : Real.sqrt (max S (5316911940649 / 5316911983139663491615228241121378304)) = max (2305843 / 2305843009213693952) (Real.sqrt S) := by
    rw [hmono.map_max, hE, Real.sqrt_sq hC.le, max_comm]
  have hpos : (0 : ℝ) < max S (5316911940649 / 5316911983139663491615228241121378304) := lt_max_of_lt_right (by norm_num)
  have hpos2 : (0 : ℝ) < max (2305843 / 2305843009213693952) (Real.sqrt S) := lt_max_of_lt_left hC
  unfold nK nR
  rw [hs, hv d, c12_val]
  unfold e24
  rw [← (EReal.coe_strictMono.monotone.map_max (a := S) (b := (5316911940649 / 5316911983139663491615228241121378304 : ℝ)))]
  rw [Ideal.sqrt_coe, if_neg (not_lt.mpr hS0)]
  rw [← (EReal.coe_strictMono.monotone.map_max (a := (2305843 / 2305843009213693952 : ℝ)) (b := Real.sqrt S))]
  rw [Ideal.rsqrt_coe, if_neg (not_lt.mpr hpos.le), if_neg (ne_of_gt hpos)]
  rw [Ideal.div_coe (ne_of_gt hpos2), hsq, one_div]

/-- So the similarities agree where both rows are real. -/
theorem simK_eq_simR (z : Sz.Idx → EReal) (p : Sp.Idx → EReal) (hz : ∀ i, ∃ v : ℝ, z i = (v : EReal)) (hp : ∀ i, ∃ v : ℝ, p i = (v : EReal))
    (b : Fin 4096) (r : Fin 8192) : simK z p b r = simR z p b r := by
  unfold simK simR
  refine Finset.sum_congr rfl fun d _ => ?_
  rw [nK_eq_nR (prow p r) (fun k => hp _) d, nK_eq_nR (zrow z b) (fun k => hz _) d, mul_comm]

/-! ## The maximum over the prototype rows, tile by tile -/

/-- Prototype row 2048 j + 8 c + k: prototype k of class 256 j + c. -/
def rIdx (j : Fin 4) (cl : Fin 256) (k : Fin 8) : Fin 8192 :=
  ⟨2048 * j.val + 8 * cl.val + k.val, by have := j.isLt; have := cl.isLt; have := k.isLt; omega⟩

theorem label_rIdx (j : Fin 4) (cl : Fin 256) (k : Fin 8) : label (rIdx j cl k) = BitVec.ofNat 32 (256 * j.val + cl.val) := by
  unfold label rIdx
  congr 1
  show (2048 * j.val + 8 * cl.val + k.val) / 8 = 256 * j.val + cl.val
  have := k.isLt
  omega

theorem sup_decomp (f : Fin 8192 → EReal) :
    (Finset.univ : Finset (Fin 8192)).fold max ⊥ f
      = (Finset.univ : Finset (Fin 4)).sup fun j => (Finset.univ : Finset (Fin 256)).sup fun cl => (Finset.univ : Finset (Fin 8)).sup fun k => f (rIdx j cl k) := by
  rw [LibFoldMaxBlocks.fold_max_bot]
  refine (LibFoldMaxBlocks.sup_blocks 4 2048 f).trans ?_
  refine Finset.sup_congr rfl fun j _ => ?_
  refine (LibFoldMaxBlocks.sup_blocks 256 8 (fun q : Fin (256 * 8) => f (finProdFinEquiv (j, q)))).trans ?_
  refine Finset.sup_congr rfl fun cl _ => Finset.sup_congr rfl fun k _ => ?_
  refine congrArg f (Fin.ext ?_)
  show k.val + 8 * cl.val + 2048 * j.val = 2048 * j.val + 8 * cl.val + k.val
  omega

/-- A mask that does not depend on the prototype may be applied after the maximum over the prototypes. -/
theorem sup_ite_const {ι : Type} (s : Finset ι) (c : Prop) [Decidable c] (f : ι → EReal) :
    (s.sup fun k => if c then f k else ⊥) = if c then s.sup f else ⊥ := by
  by_cases h : c
  · simp only [if_pos h]
  · simp only [if_neg h]; exact Finset.sup_bot s

/-- Four tiles' maxima folded left to right are their maximum. -/
theorem max4_eq_sup (T : Fin 4 → EReal) : max (max (max (T 0) (T 1)) (T 2)) (T 3) = (Finset.univ : Finset (Fin 4)).sup T := by
  apply le_antisymm
  · exact max_le (max_le (max_le (Finset.le_sup (Finset.mem_univ _)) (Finset.le_sup (Finset.mem_univ _))) (Finset.le_sup (Finset.mem_univ _))) (Finset.le_sup (Finset.mem_univ _))
  · refine Finset.sup_le fun j _ => ?_
    fin_cases j
    · exact le_max_of_le_left (le_max_of_le_left (le_max_left _ _))
    · exact le_max_of_le_left (le_max_of_le_left (le_max_right _ _))
    · exact le_max_of_le_left (le_max_right _ _)
    · exact le_max_right _ _

/-- The same-class maximum, the kernel's way: tile by tile, class by class, the mask applied to the class's maximum. -/
theorem pos_tiles (z : Sz.Idx → EReal) (y : Sy.Idx → BitVec 32) (p : Sp.Idx → EReal) (b : Fin 4096) (g : Fin 4096 → Fin 8192 → EReal)
    (hg : ∀ r, g b r = simR z p b r) :
    ((Finset.univ : Finset (Fin 4)).sup fun j => (Finset.univ : Finset (Fin 256)).sup fun cl =>
        if BitVec.ofNat 32 (256 * j.val + cl.val) = y (ix1 b) then (Finset.univ : Finset (Fin 8)).sup fun k => g b (rIdx j cl k) else ⊥)
      = posR z y p b := by
  unfold posR
  rw [sup_decomp]
  refine Finset.sup_congr rfl fun j _ => Finset.sup_congr rfl fun cl _ => ?_
  rw [← sup_ite_const]
  refine Finset.sup_congr rfl fun k _ => ?_
  rw [label_rIdx, hg]

theorem neg_tiles (z : Sz.Idx → EReal) (y : Sy.Idx → BitVec 32) (p : Sp.Idx → EReal) (b : Fin 4096) (g : Fin 4096 → Fin 8192 → EReal)
    (hg : ∀ r, g b r = simR z p b r) :
    ((Finset.univ : Finset (Fin 4)).sup fun j => (Finset.univ : Finset (Fin 256)).sup fun cl =>
        if BitVec.ofNat 32 (256 * j.val + cl.val) = y (ix1 b) then ⊥ else (Finset.univ : Finset (Fin 8)).sup fun k => g b (rIdx j cl k))
      = negR z y p b := by
  unfold negR
  rw [sup_decomp]
  refine Finset.sup_congr rfl fun j _ => Finset.sup_congr rfl fun cl _ => ?_
  have e : ∀ (c : Prop) [Decidable c] (f : Fin 8 → EReal),
      ((Finset.univ : Finset (Fin 8)).sup fun k => if c then ⊥ else f k) = if c then ⊥ else (Finset.univ : Finset (Fin 8)).sup f := by
    intro c _ f
    by_cases h : c
    · simp only [if_pos h]; exact Finset.sup_bot _
    · simp only [if_neg h]
  rw [← e]
  refine Finset.sup_congr rfl fun k _ => ?_
  rw [label_rIdx, hg]

end Cert.Spec

end
-- ==== Proof.IdealValue.lean ====
/-
  What the idealized kernel's two result arrays hold after the run: the specification's functions of the arguments.

  * The blocks: point t = 4 i + j finds rows [1024 i, 1024 (i+1)) of z and of y and rows [2048 j, 2048 (j+1)) of the
    flattened bank (row r of it is p[r / 8, r % 8, ·]).
  * So the K-major scratch's tile j, at row k·256 + c, is prototype row 2048 j + 8 c + k normalised; the batch-chunk scratch
    is rows of z normalised; the tile's masked class maxima and the running maxima follow; after the row's last point the
    running maximum for batch row b is the maximum over all 8192 prototype rows of the masked similarity.
  * The output blocks written back at the rows' last points tile the result arrays.
-/
import proofs.«162377_g90082644066738_cont_sun_c4_21_26_alg».proof.Proof.IdealBody
import proofs.«162377_g90082644066738_cont_sun_c4_21_26_alg».proof.Proof.IdealPay
import proofs.«162377_g90082644066738_cont_sun_c4_21_26_alg».proof.Proof.SpecLaws
import Idealize.ShloMosaic.Lib.StableHlo.Run

set_option maxRecDepth 16384

noncomputable section

namespace Cert.KernelIdeal.KValue

open Cert.KernelIdeal Cert.KernelIdeal.Gen Cert.KernelIdeal.Body Cert.KernelIdeal.Pay Cert.Spec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The three argument arrays on core c. -/
abbrev zA (c : Dev nD) : Sz.Idx → EReal := m ((c : Thread nD τ).loc main_arg0)
abbrev yA (c : Dev nD) : Sy.Idx → BitVec 32 := m ((c : Thread nD τ).loc main_arg1)
abbrev pA (c : Dev nD) : Sp.Idx → EReal := m ((c : Thread nD τ).loc main_arg2)

/-! ## The blocks -/

/-- The windows' block indices over the grid: z, y and the outputs move with i = t / 4, the bank with j = t % 4. -/
theorem idx_facts : ∀ t : Fin cfg0.N,
    win0_0.index t (0 : Fin 2) = t.val / 4 ∧ win0_0.index t (1 : Fin 2) = 0
    ∧ win0_1.index t (0 : Fin 1) = t.val / 4
    ∧ win0_2.index t (0 : Fin 2) = t.val % 4 ∧ win0_2.index t (1 : Fin 2) = 0
    ∧ win0_3.index t (0 : Fin 1) = t.val / 4 ∧ win0_4.index t (0 : Fin 1) = t.val / 4 :=
  (by decide +kernel : ∀ t : Fin grid0.N, _)

theorem iblk0_apply (c : Dev nD) (t : Fin cfg0.N) (b : Fin 1024) (d : Fin 256) :
    iblk m c 0 t (ix2 b d) = zA m c (ix2 ⟨1024 * (t.val / 4) + b.val, by have := t16 t; have := b.isLt; omega⟩ d) := by
  unfold iblk
  rw [show V m c (Pipeline.arrRef spec0 0) = V m c main_arg0 from rfl, V_main_arg0]
  show zA m c (((cfg0.win 0).blk t).view.emb (ix2 b d)) = _
  congr 1
  funext a; apply Fin.ext
  obtain ⟨e0, e1, -⟩ := idx_facts t
  match a with
  | ⟨0, _⟩ => show win0_0.index t (0 : Fin 2) * 1024 + 1 * b.val = 1024 * (t.val / 4) + b.val; rw [e0]; omega
  | ⟨1, _⟩ => show win0_0.index t (1 : Fin 2) * 256 + 1 * d.val = d.val; rw [e1]; omega

theorem iblk1_apply (c : Dev nD) (t : Fin cfg0.N) (b : Fin 1024) :
    iblk m c 1 t (ix1 b) = yA m c (ix1 ⟨1024 * (t.val / 4) + b.val, by have := t16 t; have := b.isLt; omega⟩) := by
  unfold iblk
  rw [show V m c (Pipeline.arrRef spec0 1) = V m c main_arg1 from rfl, V_main_arg1]
  show yA m c (((cfg0.win 1).blk t).view.emb (ix1 b)) = _
  congr 1
  funext a; apply Fin.ext
  obtain ⟨-, -, e2, -⟩ := idx_facts t
  match a with
  | ⟨0, _⟩ => show win0_1.index t (0 : Fin 1) * 1024 + 1 * b.val = 1024 * (t.val / 4) + b.val; rw [e2]; omega

/-- The bank as the region finds it: flattened by the host's reshape. -/
theorem V_main_v0 (c : Dev nD) :
    (V m c main_v0 : S8192x256.Idx → EReal) = shapeCast S8192x256 (pA m c) shapeCasts_S1024x8x256_S8192x256 := by
  dsimp only [Gen.V, Gen.hostOps0]; after_results; rfl

theorem iblk2_apply (c : Dev nD) (t : Fin cfg0.N) (q : Fin 2048) (d : Fin 256) :
    iblk m c 2 t (ix2 q d) = prow (pA m c) ⟨2048 * (t.val % 4) + q.val, by have := q.isLt; omega⟩ d := by
  unfold iblk
  rw [show V m c (Pipeline.arrRef spec0 2) = V m c main_v0 from rfl, V_main_v0]
  show shapeCast S8192x256 (pA m c) shapeCasts_S1024x8x256_S8192x256 (((cfg0.win 2).blk t).view.emb (ix2 q d)) = _
  unfold prow
  refine shapeCast_apply _ _ _ _ ?_
  rw [Shape.rowMajor_val_three, Shape.rowMajor_val_two]
  obtain ⟨-, -, -, e3, e4, -⟩ := idx_facts t
  show ((2048 * (t.val % 4) + q.val) / 8 * 8 + (2048 * (t.val % 4) + q.val) % 8) * 256 + d.val
    = (win0_2.index t (0 : Fin 2) * 2048 + 1 * q.val) * 256 + (win0_2.index t (1 : Fin 2) * 256 + 1 * d.val)
  rw [e3, e4]
  omega

/-! ## The scratch contents at an index -/

/-- Tile j of the K-major scratch at row k·256 + c: prototype row 2048 j + 8 c + k, normalised the kernel's way. -/
theorem PK_apply (c : Dev nD) (j : Fin 4) (k : Fin 8) (cl : Fin 256) (d : Fin 256) :
    PK m c j.val j.isLt (ix2 ⟨k.val * 256 + cl.val, by have := k.isLt; have := cl.isLt; omega⟩ d)
      = nK (prow (pA m c) (rIdx j cl k)) d := by
  unfold PK
  rw [pay5_apply]
  refine congrArg (fun x => nK x d) (funext fun e => ?_)
  rw [iblk2_apply]
  refine congrArg (fun r => prow (pA m c) r e) (Fin.ext ?_)
  show 2048 * (j.val % 4) + (cl.val * 8 + k.val) = 2048 * j.val + 8 * cl.val + k.val
  have := j.isLt
  omega

/-- The batch-chunk scratch during row i, at (b, d): batch row 1024 i + b, normalised the kernel's way. -/
theorem ZN_apply (c : Dev nD) (n : ℕ) (hn : n < 16) (b : Fin 1024) (d : Fin 256) :
    ZN m c n hn (ix2 b d) = nK (zrow (zA m c) ⟨1024 * (n / 4) + b.val, by have := b.isLt; omega⟩) d := by
  unfold ZN
  rw [pay6_apply]
  refine congrArg (fun x => nK x d) (funext fun e => ?_)
  rw [iblk0_apply]
  unfold zrow
  refine congrArg (fun r => zA m c (ix2 r e)) (Fin.ext ?_)
  show 1024 * ((n - n % 4) / 4) + b.val = 1024 * (n / 4) + b.val
  omega

/-- Batch row b of point t's chunk. -/
abbrev brow (t : Fin cfg0.N) (b : Fin 1024) : Fin 4096 := ⟨1024 * (t.val / 4) + b.val, by have := t16 t; have := b.isLt; omega⟩
abbrev jOf (t : Fin cfg0.N) : Fin 4 := ⟨t.val % 4, Nat.mod_lt _ (by decide)⟩

/-- The class maxima of point t's tile at (c, b): the largest similarity of batch row b to the eight prototypes of class 256 j + c. -/
theorem M33_apply (c : Dev nD) (t : Fin cfg0.N) (cl : Fin 256) (b : Fin 1024) :
    M33 m c t (ix2 cl b) = (Finset.univ : Finset (Fin 8)).sup fun k => simK (zA m c) (pA m c) (brow t b) (rIdx (jOf t) cl k) := by
  unfold M33
  rw [pay7_apply]
  refine Finset.sup_congr rfl fun k _ => ?_
  unfold simT simK
  refine Finset.sum_congr rfl fun d _ => ?_
  rw [PK_apply m c (jOf t) k cl d, ZN_apply m c t.val (t16 t) b d]

theorem M41_apply (c : Dev nD) (t : Fin cfg0.N) (cl : Fin 256) (b : Fin 1024) :
    M41 m c t (ix2 cl b) = IntOp.cmpi .eq (BitVec.ofNat 32 (256 * (t.val % 4) + cl.val)) (yA m c (ix1 (brow t b))) := by
  unfold M41
  rw [pay8_apply _ _ cl b (by rw [hcoord1]; exact Nat.mod_lt _ (by decide)), hcoord1, iblk1_apply]

theorem M43_apply (c : Dev nD) (t : Fin cfg0.N) (cl : Fin 256) (b : Fin 1024) :
    M43 m c t (ix2 cl b) = if BitVec.ofNat 32 (256 * (t.val % 4) + cl.val) = yA m c (ix1 (brow t b))
      then (Finset.univ : Finset (Fin 8)).sup fun k => simK (zA m c) (pA m c) (brow t b) (rIdx (jOf t) cl k) else ⊥ := by
  unfold M43
  rw [pay9_apply _ _ _ _ cl b (by rw [hcoord1]; exact Nat.mod_lt _ (by decide)), hcoord1, iblk1_apply]
  have e := M33_apply m c t cl b
  unfold M33 at e
  rw [e]

/-- The tile's two masked maxima for batch row b. -/
def posTile (c : Dev nD) (t : Fin cfg0.N) (b : Fin 1024) : EReal :=
  (Finset.univ : Finset (Fin 256)).sup fun cl => if BitVec.ofNat 32 (256 * (t.val % 4) + cl.val) = yA m c (ix1 (brow t b))
    then (Finset.univ : Finset (Fin 8)).sup fun k => simK (zA m c) (pA m c) (brow t b) (rIdx (jOf t) cl k) else ⊥
def negTile (c : Dev nD) (t : Fin cfg0.N) (b : Fin 1024) : EReal :=
  (Finset.univ : Finset (Fin 256)).sup fun cl => if BitVec.ofNat 32 (256 * (t.val % 4) + cl.val) = yA m c (ix1 (brow t b))
    then ⊥ else (Finset.univ : Finset (Fin 8)).sup fun k => simK (zA m c) (pA m c) (brow t b) (rIdx (jOf t) cl k)

theorem posTile_eq (c : Dev nD) (t : Fin cfg0.N) (b : Fin 1024) : k0_pay1 (F := Ideal) (M43 m c t) (ix1 b) = posTile m c t b := by
  rw [pay1_apply]
  unfold posTile
  exact Finset.sup_congr rfl fun cl _ => M43_apply m c t cl b
theorem negTile_eq (c : Dev nD) (t : Fin cfg0.N) (b : Fin 1024) :
    k0_pay2 (F := Ideal) (M33 m c t) (M41 m c t) (ix1 b) = negTile m c t b := by
  rw [pay2_apply]
  unfold negTile
  refine Finset.sup_congr rfl fun cl _ => ?_
  rw [M41_apply, select_cmpi_eq, M33_apply]

/-! ## The running maxima at a row's last point -/

/-- Point 4 i + j. -/
abbrev p4 (i : Fin 4) (j : ℕ) (hj : j < 4) : Fin cfg0.N := pt (4 * i.val + j) (by have := i.isLt; omega)

theorem posAt_last (c : Dev nD) (i : Fin 4) (b : Fin 1024) :
    posAt m c (4 * i.val + 3) (p4 i 3 (by decide)).isLt (ix1 b)
      = max (max (max (posTile m c (p4 i 0 (by decide)) b) (posTile m c (p4 i 1 (by decide)) b)) (posTile m c (p4 i 2 (by decide)) b)) (posTile m c (p4 i 3 (by decide)) b) := by
  have h3 := posAt_acc m c (p4 i 3 (by decide)) (by show ¬ (4 * i.val + 3) % 4 = 0; omega)
  have h2 := posAt_acc m c (p4 i 2 (by decide)) (by show ¬ (4 * i.val + 2) % 4 = 0; omega)
  have h1 := posAt_acc m c (p4 i 1 (by decide)) (by show ¬ (4 * i.val + 1) % 4 = 0; omega)
  have h0 := posAt_reset m c (p4 i 0 (by decide)) (by show (4 * i.val + 0) % 4 = 0; omega)
  have e3 : posAt m c (4 * i.val + 3) (p4 i 3 (by decide)).isLt = k0_pay3 (M43 m c (p4 i 3 (by decide))) (posAt m c (4 * i.val + 2) (p4 i 2 (by decide)).isLt) := h3
  have e2 : posAt m c (4 * i.val + 2) (p4 i 2 (by decide)).isLt = k0_pay3 (M43 m c (p4 i 2 (by decide))) (posAt m c (4 * i.val + 1) (p4 i 1 (by decide)).isLt) := h2
  have e1 : posAt m c (4 * i.val + 1) (p4 i 1 (by decide)).isLt = k0_pay3 (M43 m c (p4 i 1 (by decide))) (posAt m c (4 * i.val + 0) (p4 i 0 (by decide)).isLt) := h1
  have e0 : posAt m c (4 * i.val + 0) (p4 i 0 (by decide)).isLt = k0_pay1 (M43 m c (p4 i 0 (by decide))) := h0
  rw [e3, pay3_apply, e2, pay3_apply, e1, pay3_apply, e0, posTile_eq, posTile_eq, posTile_eq, posTile_eq]

theorem negAt_last (c : Dev nD) (i : Fin 4) (b : Fin 1024) :
    negAt m c (4 * i.val + 3) (p4 i 3 (by decide)).isLt (ix1 b)
      = max (max (max (negTile m c (p4 i 0 (by decide)) b) (negTile m c (p4 i 1 (by decide)) b)) (negTile m c (p4 i 2 (by decide)) b)) (negTile m c (p4 i 3 (by decide)) b) := by
  have h3 := negAt_acc m c (p4 i 3 (by decide)) (by show ¬ (4 * i.val + 3) % 4 = 0; omega)
  have h2 := negAt_acc m c (p4 i 2 (by decide)) (by show ¬ (4 * i.val + 2) % 4 = 0; omega)
  have h1 := negAt_acc m c (p4 i 1 (by decide)) (by show ¬ (4 * i.val + 1) % 4 = 0; omega)
  have h0 := negAt_reset m c (p4 i 0 (by decide)) (by show (4 * i.val + 0) % 4 = 0; omega)
  have e3 : negAt m c (4 * i.val + 3) (p4 i 3 (by decide)).isLt = k0_pay4 (M33 m c (p4 i 3 (by decide))) (M41 m c (p4 i 3 (by decide))) (negAt m c (4 * i.val + 2) (p4 i 2 (by decide)).isLt) := h3
  have e2 : negAt m c (4 * i.val + 2) (p4 i 2 (by decide)).isLt = k0_pay4 (M33 m c (p4 i 2 (by decide))) (M41 m c (p4 i 2 (by decide))) (negAt m c (4 * i.val + 1) (p4 i 1 (by decide)).isLt) := h2
  have e1 : negAt m c (4 * i.val + 1) (p4 i 1 (by decide)).isLt = k0_pay4 (M33 m c (p4 i 1 (by decide))) (M41 m c (p4 i 1 (by decide))) (negAt m c (4 * i.val + 0) (p4 i 0 (by decide)).isLt) := h1
  have e0 : negAt m c (4 * i.val + 0) (p4 i 0 (by decide)).isLt = k0_pay2 (M33 m c (p4 i 0 (by decide))) (M41 m c (p4 i 0 (by decide))) := h0
  rw [e3, pay4_apply, e2, pay4_apply, e1, pay4_apply, e0, negTile_eq, negTile_eq, negTile_eq, negTile_eq]

/-- With real inputs, the running maxima after a row's last point are the specification's. -/
theorem posAt_last_spec (c : Dev nD) (hz : ∀ i, ∃ v : ℝ, zA m c i = (v : EReal)) (hp : ∀ i, ∃ v : ℝ, pA m c i = (v : EReal))
    (i : Fin 4) (b : Fin 1024) :
    posAt m c (4 * i.val + 3) (p4 i 3 (by decide)).isLt (ix1 b)
      = posR (zA m c) (yA m c) (pA m c) ⟨1024 * i.val + b.val, by have := i.isLt; have := b.isLt; omega⟩ := by
  rw [posAt_last]
  have hb : ∀ (j : ℕ) (hj : j < 4), brow (p4 i j hj) b = ⟨1024 * i.val + b.val, by have := i.isLt; have := b.isLt; omega⟩ := fun j hj =>
    Fin.ext (by show 1024 * ((4 * i.val + j) / 4) + b.val = 1024 * i.val + b.val; omega)
  have hj : ∀ (j : ℕ) (hj : j < 4), jOf (p4 i j hj) = ⟨j, hj⟩ := fun j hj => Fin.ext (by show (4 * i.val + j) % 4 = j; omega)
  have m0 : (4 * i.val + 0) % 4 = 0 := by omega
  have m1 : (4 * i.val + 1) % 4 = 1 := by omega
  have m2 : (4 * i.val + 2) % 4 = 2 := by omega
  have m3 : (4 * i.val + 3) % 4 = 3 := by omega
  rw [← pos_tiles (zA m c) (yA m c) (pA m c) _ (simK (zA m c) (pA m c)) (fun r => simK_eq_simR _ _ hz hp _ r), ← max4_eq_sup]
  unfold posTile
  simp only [hb, hj, m0, m1, m2, m3]
  rfl

theorem negAt_last_spec (c : Dev nD) (hz : ∀ i, ∃ v : ℝ, zA m c i = (v : EReal)) (hp : ∀ i, ∃ v : ℝ, pA m c i = (v : EReal))
    (i : Fin 4) (b : Fin 1024) :
    negAt m c (4 * i.val + 3) (p4 i 3 (by decide)).isLt (ix1 b)
      = negR (zA m c) (yA m c) (pA m c) ⟨1024 * i.val + b.val, by have := i.isLt; have := b.isLt; omega⟩ := by
  rw [negAt_last]
  have hb : ∀ (j : ℕ) (hj : j < 4), brow (p4 i j hj) b = ⟨1024 * i.val + b.val, by have := i.isLt; have := b.isLt; omega⟩ := fun j hj =>
    Fin.ext (by show 1024 * ((4 * i.val + j) / 4) + b.val = 1024 * i.val + b.val; omega)
  have hj : ∀ (j : ℕ) (hj : j < 4), jOf (p4 i j hj) = ⟨j, hj⟩ := fun j hj => Fin.ext (by show (4 * i.val + j) % 4 = j; omega)
  have m0 : (4 * i.val + 0) % 4 = 0 := by omega
  have m1 : (4 * i.val + 1) % 4 = 1 := by omega
  have m2 : (4 * i.val + 2) % 4 = 2 := by omega
  have m3 : (4 * i.val + 3) % 4 = 3 := by omega
  rw [← neg_tiles (zA m c) (yA m c) (pA m c) _ (simK (zA m c) (pA m c)) (fun r => simK_eq_simR _ _ hz hp _ r), ← max4_eq_sup]
  unfold negTile
  simp only [hb, hj, m0, m1, m2, m3]
  rfl

end Cert.KernelIdeal.KValue

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.Finite.lean ====
/-
  The precondition read back: every entry of the two float arguments is (the image of) a real number.
-/
import proofs.«162377_g90082644066738_cont_sun_c4_21_26_alg».proof.Defs
import proofs.«162377_g90082644066738_cont_sun_c4_21_26_alg».proof.Proof.LibFiniteEntries
import Idealize.ShloMosaic.Lib.ValueIdx
import Idealize.ShloMosaic.Lib.Affine

noncomputable section

namespace Cert.Finite

open Idealize.ShloMosaic Idealize.ShloMosaic.ValueIdx

variable [Cert.Pre_finite_inputs.Facts]
open Cert.Pre_finite_inputs Cert.Pre_finite_inputs.Facts

/-- The conjunction the precondition states: both float arrays hold only real numbers. -/
theorem real_of_pre (z : FVec Ideal S4096x256 .f32) (y : IVec S4096 32) (p : FVec Ideal S1024x8x256 .f32)
    (h : Cert.Pre_finite_inputs.fn (F := Ideal) z y p = fun _ => 1#1) :
    (∀ i, ∃ v : ℝ, z i = (v : EReal)) ∧ (∀ i, ∃ v : ℝ, p i = (v : EReal)) := by
  have h0 := congrFun h ix0
  dsimp only [Cert.Pre_finite_inputs.fn] at h0
  obtain ⟨h1, h2⟩ := IntOp.andi_eq_one.mp h0
  have ez := LibFiniteEntries.real_of_all_abs_lt z _ (fun i => rfl) _ _ _ ix0 h1
  have ep := LibFiniteEntries.real_of_all_abs_lt p _ (fun i => rfl) _ _ _ ix0 h2
  exact ⟨fun i => ⟨(z i).toReal, congrFun ez i⟩, fun i => ⟨(p i).toReal, congrFun ep i⟩⟩

end Cert.Finite

end
-- ==== Proof.IdealFinal.lean ====
/-
  The idealized kernel's run, read: its two result arrays end holding the specification's functions of the arguments.

  Each result's blocks are written back at the last point of each row of the grid (points 3, 7, 11, 15), block i of the
  array being batch rows [1024 i, 1024 (i + 1)); the four blocks tile the array.
-/
import proofs.«162377_g90082644066738_cont_sun_c4_21_26_alg».proof.Proof.IdealValue
import proofs.«162377_g90082644066738_cont_sun_c4_21_26_alg».proof.Proof.Finite

set_option maxRecDepth 16384

noncomputable section

namespace Cert.KernelIdeal.KValue

open Cert.KernelIdeal Cert.KernelIdeal.Gen Cert.KernelIdeal.Body Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The two results as the specification states them. -/
def G3 (c : Dev nD) : S4096.Idx → EReal := fun i => posR (zA m c) (yA m c) (pA m c) (i 0)
def G4 (c : Dev nD) : S4096.Idx → EReal := fun i => negR (zA m c) (yA m c) (pA m c) (i 0)

/-- A point that writes the outputs back is a row's last. -/
theorem last_of_flush (t : Fin cfg0.N) (ht : t.val % 4 = 3) : ∃ i : Fin 4, t = p4 i 3 (by decide) :=
  ⟨⟨t.val / 4, by have := t16 t; omega⟩, Fin.ext (by show t.val = 4 * (t.val / 4) + 3; omega)⟩

theorem flushed3_eq (c : Dev nD) (hz : ∀ i, ∃ v : ℝ, zA m c i = (v : EReal)) (hp : ∀ i, ∃ v : ℝ, pA m c i = (v : EReal))
    (t : Fin cfg0.N) (hf : (cfg0.win 3).flush t = true) :
    (dats m 0 c).flushed 3 t = ((cfg0.win 3).blk t).view.read (Elt Ideal) (G3 m c) := by
  obtain ⟨i, rfl⟩ := last_of_flush t ((flush0_3 t).mp hf)
  show (cfg0.win 3).cut (grid0.coords (p4 i 3 (by decide))) ((dats m 0 c).after 3 (p4 i 3 (by decide))) = _
  rw [after3]
  funext x
  obtain ⟨b, rfl⟩ : ∃ b : Fin 1024, x = ix1 b := ⟨x 0, eq_ix1 x⟩
  show posAt m c (4 * i.val + 3) (p4 i 3 (by decide)).isLt (ix1 b) = ((cfg0.win 3).blk (p4 i 3 (by decide))).view.read (Elt Ideal) (G3 m c) (ix1 b)
  rw [View.read_apply, posAt_last_spec m c hz hp i b]
  unfold G3
  refine congrArg (posR (zA m c) (yA m c) (pA m c)) (Fin.ext ?_)
  obtain ⟨-, -, -, -, -, e5, -⟩ := idx_facts (p4 i 3 (by decide))
  show 1024 * i.val + b.val = win0_3.index (p4 i 3 (by decide)) (0 : Fin 1) * 1024 + 1 * b.val
  rw [e5]
  show 1024 * i.val + b.val = (4 * i.val + 3) / 4 * 1024 + 1 * b.val
  omega

theorem flushed4_eq (c : Dev nD) (hz : ∀ i, ∃ v : ℝ, zA m c i = (v : EReal)) (hp : ∀ i, ∃ v : ℝ, pA m c i = (v : EReal))
    (t : Fin cfg0.N) (hf : (cfg0.win 4).flush t = true) :
    (dats m 0 c).flushed 4 t = ((cfg0.win 4).blk t).view.read (Elt Ideal) (G4 m c) := by
  obtain ⟨i, rfl⟩ := last_of_flush t ((flush0_4 t).mp hf)
  show (cfg0.win 4).cut (grid0.coords (p4 i 3 (by decide))) ((dats m 0 c).after 4 (p4 i 3 (by decide))) = _
  rw [after4]
  funext x
  obtain ⟨b, rfl⟩ : ∃ b : Fin 1024, x = ix1 b := ⟨x 0, eq_ix1 x⟩
  show negAt m c (4 * i.val + 3) (p4 i 3 (by decide)).isLt (ix1 b) = ((cfg0.win 4).blk (p4 i 3 (by decide))).view.read (Elt Ideal) (G4 m c) (ix1 b)
  rw [View.read_apply, negAt_last_spec m c hz hp i b]
  unfold G4
  refine congrArg (negR (zA m c) (yA m c) (pA m c)) (Fin.ext ?_)
  obtain ⟨-, -, -, -, -, -, e6⟩ := idx_facts (p4 i 3 (by decide))
  show 1024 * i.val + b.val = win0_4.index (p4 i 3 (by decide)) (0 : Fin 1) * 1024 + 1 * b.val
  rw [e6]
  show 1024 * i.val + b.val = (4 * i.val + 3) / 4 * 1024 + 1 * b.val
  omega

/-- An index of a result array is in point t's block iff it is in the block's range. -/
theorem mem_blk3 (t : Fin cfg0.N) (i : S4096.Idx) :
    i ∈ ((cfg0.win 3).blk t).view.set ↔ ∀ a : Fin 1, win0_3.index t a * S1024.size a ≤ (i a).val ∧ (i a).val < win0_3.index t a * S1024.size a + S1024.size a := by
  show i ∈ ((View.whole main_v1_0).slice (win0_3.rect t)).set ↔ _
  rw [View.set_slice_whole, Rect.mem_set_unit]
  exact Iff.rfl
theorem mem_blk4 (t : Fin cfg0.N) (i : S4096.Idx) :
    i ∈ ((cfg0.win 4).blk t).view.set ↔ ∀ a : Fin 1, win0_4.index t a * S1024.size a ≤ (i a).val ∧ (i a).val < win0_4.index t a * S1024.size a + S1024.size a := by
  show i ∈ ((View.whole main_v1_1).slice (win0_4.rect t)).set ↔ _
  rw [View.set_slice_whole, Rect.mem_set_unit]
  exact Iff.rfl

/-- Every batch row is in the block some row's last point writes back. -/
theorem cover3 (i : S4096.Idx) : ∃ t : Fin cfg0.N, (cfg0.win 3).flush t = true ∧ i ∈ ((cfg0.win 3).blk t).view.set := by
  have hi : (i 0).val < 4096 := (i 0).isLt
  refine ⟨pt (4 * ((i 0).val / 1024) + 3) (by omega), (flush0_3 _).mpr (by show (4 * ((i 0).val / 1024) + 3) % 4 = 3; omega), ?_⟩
  rw [mem_blk3]
  intro a
  obtain ⟨-, -, -, -, -, e5, -⟩ := idx_facts (pt (4 * ((i 0).val / 1024) + 3) (by omega))
  match a with
  | ⟨0, _⟩ =>
    show win0_3.index _ (0 : Fin 1) * 1024 ≤ (i 0).val ∧ (i 0).val < win0_3.index _ (0 : Fin 1) * 1024 + 1024
    rw [e5]
    show (4 * ((i 0).val / 1024) + 3) / 4 * 1024 ≤ (i 0).val ∧ (i 0).val < (4 * ((i 0).val / 1024) + 3) / 4 * 1024 + 1024
    omega
theorem cover4 (i : S4096.Idx) : ∃ t : Fin cfg0.N, (cfg0.win 4).flush t = true ∧ i ∈ ((cfg0.win 4).blk t).view.set := by
  have hi : (i 0).val < 4096 := (i 0).isLt
  refine ⟨pt (4 * ((i 0).val / 1024) + 3) (by omega), (flush0_4 _).mpr (by show (4 * ((i 0).val / 1024) + 3) % 4 = 3; omega), ?_⟩
  rw [mem_blk4]
  intro a
  obtain ⟨-, -, -, -, -, -, e6⟩ := idx_facts (pt (4 * ((i 0).val / 1024) + 3) (by omega))
  match a with
  | ⟨0, _⟩ =>
    show win0_4.index _ (0 : Fin 1) * 1024 ≤ (i 0).val ∧ (i 0).val < win0_4.index _ (0 : Fin 1) * 1024 + 1024
    rw [e6]
    show (4 * ((i 0).val / 1024) + 3) / 4 * 1024 ≤ (i 0).val ∧ (i 0).val < (4 * ((i 0).val / 1024) + 3) / 4 * 1024 + 1024
    omega

theorem final3 (c : Dev nD) (hz : ∀ i, ∃ v : ℝ, zA m c i = (v : EReal)) (hp : ∀ i, ∃ v : ℝ, pA m c i = (v : EReal)) :
    (dats m 0 c).arrAt 3 cfg0.N = G3 m c :=
  (dats m 0 c).arrAt_eq_of_cover 3 (G3 m c) (fun t hf => flushed3_eq m c hz hp t hf) (cover3)
theorem final4 (c : Dev nD) (hz : ∀ i, ∃ v : ℝ, zA m c i = (v : EReal)) (hp : ∀ i, ∃ v : ℝ, pA m c i = (v : EReal)) :
    (dats m 0 c).arrAt 4 cfg0.N = G4 m c :=
  (dats m 0 c).arrAt_eq_of_cover 4 (G4 m c) (fun t hf => flushed4_eq m c hz hp t hf) (cover4)

/-- The idealized kernel's run, with both results named and the arguments unchanged. -/
theorem run [Cert.Pre_finite_inputs.Facts]
    (hpre : ∀ c : Dev nD, Cert.Pre_finite_inputs.fn (F := Ideal) (m ((c.tc : Thread nD τ).loc main_arg0)) (m ((c.tc : Thread nD τ).loc main_arg1)) (m ((c.tc : Thread nD τ).loc main_arg2)) = fun _ => 1#1) :
    θ_run defs (onTc (τ := τ) (main (F := Ideal))) ⟨m, fun _ => 0, ρ⟩ (fun r => ∀ c : Dev nD,
      r.2.mem ((c.tc : Thread nD τ).loc main_v1_0) = G3 m c
      ∧ r.2.mem ((c.tc : Thread nD τ).loc main_v1_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      have hf := Cert.Finite.real_of_pre _ _ _ (hpre c)
      ⟨((h c).1 3).trans (final3 m c hf.1 hf.2),
      ((h c).1 4).trans (final4 m c hf.1 hf.2),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main (F := Ideal) m ρ)

end Cert.KernelIdeal.KValue

end
-- ==== Proof.RefSide.lean ====
/-
  The reference program's two results, read back as the specification's functions.

  Row b of the first result is the fold of max, from −∞, over the 8192 prototype rows r of
  "sim b r if the class of r is y[b], else −∞"; the second result has the two branches exchanged.  Each entry
  sim b r is the sum over the 256 features of the normalised batch row times the normalised prototype row,
  the prototype row r of the flattened bank being p[r / 8, r % 8, ·] and its class the word r / 8.
-/
import proofs.«162377_g90082644066738_cont_sun_c4_21_26_alg».proof.Proof.Gen.ReferenceIdeal.Read
import proofs.«162377_g90082644066738_cont_sun_c4_21_26_alg».proof.Proof.Spec

noncomputable section

namespace Cert.ReferenceIdeal.RefSide

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (x0 : (⟨S4096x256, .f32⟩ : BufTy).Contents (Elt Ideal)) (x1 : (⟨S4096, .i32⟩ : BufTy).Contents (Elt Ideal))
  (x2 : (⟨S1024x8x256, .f32⟩ : BufTy).Contents (Elt Ideal))

/-- The clamped norm of a batch row: max(ε, √(0 + Σ z²)). -/
theorem v1_at (i : S4096x1.Idx) :
    val_main_v1 (F := Ideal) x0 i = max Spec.c12 (Ideal.sqrt (Spec.ssq (Spec.zrow x0 (i 0)))) := by
  rw [val_main_v1_apply, val_main_call1_v1_apply, val_main_call1_v0_apply, val_main_cst_apply, val_main_v0_apply,
    val_main_call0_v2_apply, val_main_call0_v1_apply, val_main_call0_cst_apply]
  simp only [Ideal.maximumf_def, Ideal.hostUnary_sqrt_def, Ideal.ofBits_def, Ideal.ofBits_zero_f32, zero_add,
    val_main_call0_v0_apply, Ideal.mulf_def]
  have e : ∀ k : Fin 256, idx_main_call0_v1 (idx_main_call0_v2 i) k = ix2 (i 0) k := fun k =>
    funext fun a => Fin.ext (by match a with | ⟨0, _⟩ => rfl | ⟨1, _⟩ => rfl)
  simp only [e]
  rfl

/-- The normalised batch row at (b, d). -/
theorem v3_at (b : Fin 4096) (d : Fin 256) :
    val_main_v3 (F := Ideal) x0 (ix2 b d) = Spec.nR (Spec.zrow x0 b) d := by
  rw [val_main_v3_apply, val_main_v2_apply, v1_at]
  simp only [Ideal.hostDivf_def]
  rfl

/-- Element (r, k) of the flattened bank is p[r / 8, r % 8, k]. -/
theorem idx_v4 (r : Fin 8192) (k : Fin 256) :
    idx_main_v4 (ix2 r k)
      = ix3 (n0 := 1024) (n1 := 8) (n2 := 256) ⟨r.val / 8, by have := r.isLt; omega⟩ ⟨r.val % 8, Nat.mod_lt _ (by decide)⟩ k := by
  funext a
  apply Fin.ext
  have hr := r.isLt
  have hk := k.isLt
  match a with
  | ⟨0, _⟩ => show (r.val * 256 + k.val) / 2048 = r.val / 8; omega
  | ⟨1, _⟩ => show (r.val * 256 + k.val) / 256 % 8 = r.val % 8; omega
  | ⟨2, _⟩ => show (r.val * 256 + k.val) % 256 = k.val; omega

/-- The clamped norm of a prototype row. -/
theorem v6_at (i : S8192x1.Idx) :
    val_main_v6 (F := Ideal) x2 i = max Spec.c12 (Ideal.sqrt (Spec.ssq (Spec.prow x2 (i 0)))) := by
  rw [val_main_v6_apply, val_main_call3_v1_apply, val_main_call3_v0_apply, val_main_cst_0_apply, val_main_v5_apply,
    val_main_call2_v2_apply, val_main_call2_v1_apply, val_main_call2_cst_apply]
  simp only [Ideal.maximumf_def, Ideal.hostUnary_sqrt_def, Ideal.ofBits_def, Ideal.ofBits_zero_f32, zero_add,
    val_main_call2_v0_apply, val_main_v4_apply, Ideal.mulf_def]
  have e : ∀ k : Fin 256, idx_main_call2_v1 (idx_main_call2_v2 i) k = ix2 (n0 := 8192) (n1 := 256) (i 0) k := fun k =>
    funext fun a => Fin.ext (by match a with | ⟨0, _⟩ => rfl | ⟨1, _⟩ => rfl)
  have e' : ∀ k : Fin 256, idx_main_v4 (idx_main_call2_v1 (idx_main_call2_v2 i) k)
      = ix3 (n0 := 1024) (n1 := 8) (n2 := 256) ⟨(i 0).val / 8, by have h0 : (i 0).val < 8192 := (i 0).isLt; omega⟩
          ⟨(i 0).val % 8, Nat.mod_lt _ (by decide)⟩ k := fun k =>
    (congrArg idx_main_v4 (e k)).trans (idx_v4 (i 0) k)
  simp only [e']
  rfl

/-- The normalised prototype row at (r, d). -/
theorem v8_at (r : Fin 8192) (d : Fin 256) :
    val_main_v8 (F := Ideal) x2 (ix2 r d) = Spec.nR (Spec.prow x2 r) d := by
  rw [val_main_v8_apply, val_main_v7_apply, v6_at, val_main_v4_apply, idx_v4]
  simp only [Ideal.hostDivf_def]
  rfl

/-- The similarity matrix at (b, r). -/
theorem v10_at (b : Fin 4096) (r : Fin 8192) :
    val_main_v10 (F := Ideal) x0 x2 (ix2 b r) = Spec.simR x0 x2 b r := by
  rw [val_main_v10_apply]
  unfold Spec.simR
  refine Finset.sum_congr rfl fun d _ => ?_
  have el : lidx_main_v10 (ix2 b r) d = ix2 b d :=
    funext fun a => Fin.ext (by match a with | ⟨0, _⟩ => rfl | ⟨1, _⟩ => rfl)
  have er : idx_main_v9 (ridx_main_v10 (ix2 b r) d) = ix2 r d :=
    funext fun a => Fin.ext (by match a with | ⟨0, _⟩ => rfl | ⟨1, _⟩ => rfl)
  rw [el, v3_at, val_main_v9_apply, er, v8_at]

/-- The class comparison at (b, r): the word r / 8 against y[b]. -/
theorem v18_at (b : Fin 4096) (r : Fin 8192) :
    val_main_v18 (F := Ideal) x1 (ix2 b r) = IntOp.cmpi .eq (Spec.label r) (x1 (ix1 b)) := by
  rw [val_main_v18_apply, val_main_v16_apply, val_main_v14_apply, val_main_v13_apply, val_main_v12_apply,
    val_main_v11_apply, val_main_v17_apply, val_main_v15_apply]
  have e : idx_main_v15 (idx_main_v17 (ix2 b r)) = ix1 b :=
    funext fun a => Fin.ext (by match a with | ⟨0, _⟩ => rfl)
  rw [e]
  rfl

/-- The word 0xFF800000 is −∞. -/
theorem negInf_word : Ideal.ofBits .f32 0xFF800000#32 = (⊥ : EReal) := by simp [Ideal.ofBits, Ideal.ieee]

/-- The masked similarity of the first result at (b, r). -/
theorem v19_at (b : Fin 4096) (r : Fin 8192) :
    val_main_v19 (F := Ideal) x0 x1 x2 (ix2 b r)
      = if Spec.label r = x1 (ix1 b) then Spec.simR x0 x2 b r else ⊥ := by
  rw [val_main_v19_apply, v18_at, v10_at, val_main_call4_v1_apply, val_main_call4_v0_apply, val_main_cst_1_apply]
  show Scalar.select _ _ (Ideal.ofBits .f32 0xFF800000#32) = _
  rw [negInf_word]
  unfold Scalar.select
  by_cases h : Spec.label r = x1 (ix1 b)
  · rw [if_pos h, if_pos (show IntOp.cmpi .eq (Spec.label r) (x1 (ix1 b)) = 1 from IntOp.cmpi_eq.2 h)]
  · rw [if_neg h, if_neg (show ¬IntOp.cmpi .eq (Spec.label r) (x1 (ix1 b)) = 1 from fun hc => h (IntOp.cmpi_eq.1 hc))]

/-- The masked similarity of the second result at (b, r). -/
theorem v21_at (b : Fin 4096) (r : Fin 8192) :
    val_main_v21 (F := Ideal) x0 x1 x2 (ix2 b r)
      = if Spec.label r = x1 (ix1 b) then ⊥ else Spec.simR x0 x2 b r := by
  rw [val_main_v21_apply, v18_at, v10_at, val_main_call5_v1_apply, val_main_call5_v0_apply, val_main_cst_3_apply]
  show Scalar.select _ (Ideal.ofBits .f32 0xFF800000#32) _ = _
  rw [negInf_word]
  unfold Scalar.select
  by_cases h : Spec.label r = x1 (ix1 b)
  · rw [if_pos h, if_pos (show IntOp.cmpi .eq (Spec.label r) (x1 (ix1 b)) = 1 from IntOp.cmpi_eq.2 h)]
  · rw [if_neg h, if_neg (show ¬IntOp.cmpi .eq (Spec.label r) (x1 (ix1 b)) = 1 from fun hc => h (IntOp.cmpi_eq.1 hc))]

/-- Row b of the [4096, 8192] matrix with column r put back is (b, r). -/
theorem lift_row (h : S4096x8192.Reduces [1] S4096) (i : S4096.Idx) (r : Fin (S4096x8192.size 1)) :
    h.lift i r = ix2 (n0 := 4096) (n1 := 8192) (i 0) ⟨r.val, r.isLt⟩ := by
  funext c; apply Fin.ext
  fin_cases c <;> rfl

/-- The first result: row b is the largest similarity to a prototype of the row's own class. -/
theorem ref_pos : val_main_v20 (F := Ideal) x0 x1 x2 = fun i => Spec.posR x0 x1 x2 (i 0) := by
  funext i
  have h : S4096x8192.Reduces [1] S4096 := by decide
  unfold val_main_v20
  rw [Host.reduce_eq_fold_single FloatOps.maximumf _ _ reducesTo_S4096x8192_S4096_d1 h h_S_ i, val_main_cst_2_apply]
  have hf : (val_main_v19 (F := Ideal) x0 x1 x2 ∘ h.lift i)
      = fun r : Fin 8192 => if Spec.label r = x1 (ix1 (i 0)) then Spec.simR x0 x2 (i 0) r else ⊥ :=
    funext fun r =>
      (congrArg (val_main_v19 (F := Ideal) x0 x1 x2) (lift_row h i r)).trans (v19_at x0 x1 x2 (i 0) ⟨r.val, r.isLt⟩)
  rw [hf]
  show Finset.fold max (Ideal.ofBits .f32 0xFF800000#32) _ (Finset.univ : Finset (Fin 8192)) = _
  rw [negInf_word]
  rfl

/-- The second result: row b is the largest similarity to a prototype of another class. -/
theorem ref_neg : val_main_v22 (F := Ideal) x0 x1 x2 = fun i => Spec.negR x0 x1 x2 (i 0) := by
  funext i
  have h : S4096x8192.Reduces [1] S4096 := by decide
  unfold val_main_v22
  rw [Host.reduce_eq_fold_single FloatOps.maximumf _ _ reducesTo_S4096x8192_S4096_d1 h h_S_ i, val_main_cst_4_apply]
  have hf : (val_main_v21 (F := Ideal) x0 x1 x2 ∘ h.lift i)
      = fun r : Fin 8192 => if Spec.label r = x1 (ix1 (i 0)) then ⊥ else Spec.simR x0 x2 (i 0) r :=
    funext fun r =>
      (congrArg (val_main_v21 (F := Ideal) x0 x1 x2) (lift_row h i r)).trans (v21_at x0 x1 x2 (i 0) ⟨r.val, r.isLt⟩)
  rw [hf]
  show Finset.fold max (Ideal.ofBits .f32 0xFF800000#32) _ (Finset.univ : Finset (Fin 8192)) = _
  rw [negInf_word]
  rfl

end Cert.ReferenceIdeal.RefSide

end
-- ==== Proof.lean ====
/-
  The certificate's five claims.

  The three frames: each kernel program's frame is its run over the proof data of its four control cases (Proof/BitsBody.lean at the
  word level, Proof/IdealBody.lean idealized); the reference's is its generated run with the results dropped.
  The idealization's ledger: the kernel's clamp 1e-24, whose 32-bit word is the rounding of ε² for ε the reference's own clamp word,
  is read as ε² exactly (both normalisations spell it).
  The equivalence: both programs' two results are the specification's functions of the arguments (Proof/Spec.lean) — the kernel's
  through the tile-by-tile running maxima (Proof/IdealValue.lean, Proof/IdealFinal.lean), the reference's by reading its run one
  operation at a time (Proof/RefSide.lean); finiteness of the inputs is what makes the two normalisations agree.
-/
import proofs.«162377_g90082644066738_cont_sun_c4_21_26_alg».proof.Defs
import proofs.«162377_g90082644066738_cont_sun_c4_21_26_alg».proof.Proof.Gen.Kernel
import proofs.«162377_g90082644066738_cont_sun_c4_21_26_alg».proof.Proof.Gen.KernelIdeal
import proofs.«162377_g90082644066738_cont_sun_c4_21_26_alg».proof.Proof.Gen.ReferenceIdeal
import proofs.«162377_g90082644066738_cont_sun_c4_21_26_alg».proof.Proof.Gen.Pre_finite_inputs
import proofs.«162377_g90082644066738_cont_sun_c4_21_26_alg».proof.Proof.Gen.ReferenceIdeal.Run
import proofs.«162377_g90082644066738_cont_sun_c4_21_26_alg».proof.Proof.Gen.ReferenceIdeal.Read
import proofs.«162377_g90082644066738_cont_sun_c4_21_26_alg».proof.Proof.BitsBody
import proofs.«162377_g90082644066738_cont_sun_c4_21_26_alg».proof.Proof.IdealFinal
import proofs.«162377_g90082644066738_cont_sun_c4_21_26_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ =>
  (θ_run Cert.ReferenceIdeal.defs _ _).mono (fun _ h c => (h c).2.2) (Cert.ReferenceIdeal.Value.run (F := Ideal) m ρ)

/-- The ledger's two entries (one per normalisation): the table gives the clamp the value ε². -/
theorem preserves : Cert.preserves_Kernel_KernelIdeal :=
  ⟨IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl⟩

theorem algebraic : Cert.algebraic_KernelIdeal_ReferenceIdeal := by
  intro m ρ m' ρ' hpre hagree
  refine ⟨fun c => Cert.KernelIdeal.KValue.G3 m c, fun c => Cert.KernelIdeal.KValue.G4 m c,
    Cert.KernelIdeal.KValue.run m ρ hpre, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v20_eq, Cert.ReferenceIdeal.RefSide.ref_pos, (hagree c).1, (hagree c).2.1, (hagree c).2.2]
    rfl
  · rw [(h c).2.1, Cert.ReferenceIdeal.Read.val_main_v22_eq, Cert.ReferenceIdeal.RefSide.ref_neg, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
